-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x8 : Shape := ⟨2, ![2, 8]⟩
abbrev S8 : Shape := ⟨1, ![8]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S2x8 .f32) (main_arg9 : FVec F S8 .f32) (main_v33 : IVec S_ 1) : IVec S_ 1 :=
  let main_v34 : FVec F S2x8 .f32 := Host.absf main_arg8
  let main_cst_12 : FVec F S_ .f32 := constant S_ .f32 0x7F800000#32
  let main_v35 : FVec F S2x8 .f32 := broadcastInDim S2x8 ![] bcast_S_S2x8 main_cst_12
  let main_v36 : IVec S2x8 1 := cmpf .olt main_v34 main_v35
  let main_c_13 : IVec S_ 1 := constantI S_ 1 1#1
  let main_v37 : IVec S_ 1 := (fun x v => Host.reduce IntOp.andi x v reducesTo_S2x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg5 : FVec F S4 .f32) (main_arg6 : FVec F S4x2 .f32) (main_arg7 : FVec F S2 .f32) (main_arg8 : FVec F S2x8 .f32) (main_arg9 : FVec F S8 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S500000x128 .f32) (main_arg1 : IVec S2x16000000 32) (main_arg2 : FVec F S128x4 .f32) (main_arg3 : FVec F S4 .f32) (main_arg4 : FVec F S4x4 .f32) (main_arg5 : FVec F S4 .f32) (main_arg6 : FVec F S4x2 .f32) (main_arg7 : FVec F S2 .f32) (main_arg8 : FVec F S2x8 .f32) (main_arg9 : FVec F S8 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x8 : Shape := ⟨2, ![2, 8]⟩
abbrev S8 : Shape := ⟨1, ![8]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S5000x128 : Shape := ⟨2, ![5000, 128]⟩
abbrev S5000x4 : Shape := ⟨2, ![5000, 4]⟩
abbrev S16500000x4 : Shape := ⟨2, ![16500000, 4]⟩
abbrev S1x4 : Shape := ⟨2, ![1, 4]⟩
abbrev S500000x2 : Shape := ⟨2, ![500000, 2]⟩
abbrev S5000x2 : Shape := ⟨2, ![5000, 2]⟩
abbrev S16500000x2 : Shape := ⟨2, ![16500000, 2]⟩
abbrev S1x2 : Shape := ⟨2, ![1, 2]⟩
abbrev S1x8 : Shape := ⟨2, ![1, 8]⟩
abbrev S500000x8 : Shape := ⟨2, ![500000, 8]⟩
abbrev S5000x8 : Shape := ⟨2, ![5000, 8]⟩

abbrev nBuf : Space → Nat
  | .hbm => 112
  | .vmem => 36
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x8, .f32⟩
  | .hbm, ⟨9, _⟩ => ⟨S8, .f32⟩
  | .hbm, ⟨10, _⟩ => ⟨S500000, .i32⟩
  | .hbm, ⟨11, _⟩ => ⟨S1x16000000, .i32⟩
  | .hbm, ⟨12, _⟩ => ⟨S16000000, .i32⟩
  | .hbm, ⟨13, _⟩ => ⟨S16500000, .i32⟩
  | .hbm, ⟨14, _⟩ => ⟨S1x16000000, .i32⟩
  | .hbm, ⟨15, _⟩ => ⟨S16000000, .i32⟩
  | .hbm, ⟨16, _⟩ => ⟨S16500000, .i32⟩
  | .hbm, ⟨17, _⟩ => ⟨S_, .f32⟩
  | .hbm, ⟨18, _⟩ => ⟨S16500000, .f32⟩
  | .hbm, ⟨19, _⟩ => ⟨S_, .f32⟩
  | .hbm, ⟨20, _⟩ => ⟨S500000, .f32⟩
  | .hbm, ⟨21, _⟩ => ⟨S16500000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .i1⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S500000, .f32⟩
  | .hbm, ⟨30, _⟩ => ⟨S_, .f32⟩
  | .hbm, ⟨31, _⟩ => ⟨S_, .f32⟩
  | .hbm, ⟨32, _⟩ => ⟨S500000, .f32⟩
  | .hbm, ⟨33, _⟩ => ⟨S500000, .f32⟩
  | .hbm, ⟨34, _⟩ => ⟨S_, .i32⟩
  | .hbm, ⟨35, _⟩ => ⟨S16500000, .i32⟩
  | .hbm, ⟨36, _⟩ => ⟨S16500000, .i1⟩
  | .hbm, ⟨37, _⟩ => ⟨S_, .i32⟩
  | .hbm, ⟨38, _⟩ => ⟨S16500000, .i32⟩
  | .hbm, ⟨39, _⟩ => ⟨S16500000, .i32⟩
  | .hbm, ⟨40, _⟩ => ⟨S16500000, .i32⟩
  | .hbm, ⟨41, _⟩ => ⟨S16500000x1, .i32⟩
  | .hbm, ⟨42, _⟩ => ⟨S16500000, .f32⟩
  | .hbm, ⟨43, _⟩ => ⟨S_, .i32⟩
  | .hbm, ⟨44, _⟩ => ⟨S16500000, .i32⟩
  | .hbm, ⟨45, _⟩ => ⟨S16500000, .i1⟩
  | .hbm, ⟨46, _⟩ => ⟨S_, .i32⟩
  | .hbm, ⟨47, _⟩ => ⟨S16500000, .i32⟩
  | .hbm, ⟨48, _⟩ => ⟨S16500000, .i32⟩
  | .hbm, ⟨49, _⟩ => ⟨S16500000, .i32⟩
  | .hbm, ⟨50, _⟩ => ⟨S16500000x1, .i32⟩
  | .hbm, ⟨51, _⟩ => ⟨S16500000, .f32⟩
  | .hbm, ⟨52, _⟩ => ⟨S16500000, .f32⟩
  | .hbm, ⟨53, _⟩ => ⟨S500000x4, .f32⟩
  | .hbm, ⟨54, _⟩ => ⟨S_, .i32⟩
  | .hbm, ⟨55, _⟩ => ⟨S16500000, .i32⟩
  | .hbm, ⟨56, _⟩ => ⟨S16500000, .i1⟩
  | .hbm, ⟨57, _⟩ => ⟨S_, .i32⟩
  | .hbm, ⟨58, _⟩ => ⟨S16500000, .i32⟩
  | .hbm, ⟨59, _⟩ => ⟨S16500000, .i32⟩
  | .hbm, ⟨60, _⟩ => ⟨S16500000, .i32⟩
  | .hbm, ⟨61, _⟩ => ⟨S16500000x1, .i32⟩
  | .hbm, ⟨62, _⟩ => ⟨S16500000x4, .f32⟩
  | .hbm, ⟨63, _⟩ => ⟨S16500000x1, .f32⟩
  | .hbm, ⟨64, _⟩ => ⟨S16500000x4, .f32⟩
  | .hbm, ⟨65, _⟩ => ⟨S16500000x4, .f32⟩
  | .hbm, ⟨66, _⟩ => ⟨S_, .f32⟩
  | .hbm, ⟨67, _⟩ => ⟨S500000x4, .f32⟩
  | .hbm, ⟨68, _⟩ => ⟨S16500000x1, .i32⟩
  | .hbm, ⟨69, _⟩ => ⟨S500000x4, .f32⟩
  | .hbm, ⟨70, _⟩ => ⟨S1x4, .f32⟩
  | .hbm, ⟨71, _⟩ => ⟨S500000x4, .f32⟩
  | .hbm, ⟨72, _⟩ => ⟨S500000x4, .f32⟩
  | .hbm, ⟨73, _⟩ => ⟨S_, .i32⟩
  | .hbm, ⟨74, _⟩ => ⟨S16500000, .i32⟩
  | .hbm, ⟨75, _⟩ => ⟨S16500000, .i1⟩
  | .hbm, ⟨76, _⟩ => ⟨S_, .i32⟩
  | .hbm, ⟨77, _⟩ => ⟨S16500000, .i32⟩
  | .hbm, ⟨78, _⟩ => ⟨S16500000, .i32⟩
  | .hbm, ⟨79, _⟩ => ⟨S16500000, .i32⟩
  | .hbm, ⟨80, _⟩ => ⟨S16500000x1, .i32⟩
  | .hbm, ⟨81, _⟩ => ⟨S16500000x4, .f32⟩
  | .hbm, ⟨82, _⟩ => ⟨S16500000x1, .f32⟩
  | .hbm, ⟨83, _⟩ => ⟨S16500000x4, .f32⟩
  | .hbm, ⟨84, _⟩ => ⟨S16500000x4, .f32⟩
  | .hbm, ⟨85, _⟩ => ⟨S_, .f32⟩
  | .hbm, ⟨86, _⟩ => ⟨S500000x4, .f32⟩
  | .hbm, ⟨87, _⟩ => ⟨S16500000x1, .i32⟩
  | .hbm, ⟨88, _⟩ => ⟨S500000x4, .f32⟩
  | .hbm, ⟨89, _⟩ => ⟨S1x4, .f32⟩
  | .hbm, ⟨90, _⟩ => ⟨S500000x4, .f32⟩
  | .hbm, ⟨91, _⟩ => ⟨S500000x2, .f32⟩
  | .hbm, ⟨92, _⟩ => ⟨S_, .i32⟩
  | .hbm, ⟨93, _⟩ => ⟨S16500000, .i32⟩
  | .hbm, ⟨94, _⟩ => ⟨S16500000, .i1⟩
  | .hbm, ⟨95, _⟩ => ⟨S_, .i32⟩
  | .hbm, ⟨96, _⟩ => ⟨S16500000, .i32⟩
  | .hbm, ⟨97, _⟩ => ⟨S16500000, .i32⟩
  | .hbm, ⟨98, _⟩ => ⟨S16500000, .i32⟩
  | .hbm, ⟨99, _⟩ => ⟨S16500000x1, .i32⟩
  | .hbm, ⟨100, _⟩ => ⟨S16500000x2, .f32⟩
  | .hbm, ⟨101, _⟩ => ⟨S16500000x1, .f32⟩
  | .hbm, ⟨102, _⟩ => ⟨S16500000x2, .f32⟩
  | .hbm, ⟨103, _⟩ => ⟨S16500000x2, .f32⟩
  | .hbm, ⟨104, _⟩ => ⟨S_, .f32⟩
  | .hbm, ⟨105, _⟩ => ⟨S500000x2, .f32⟩
  | .hbm, ⟨106, _⟩ => ⟨S16500000x1, .i32⟩
  | .hbm, ⟨107, _⟩ => ⟨S500000x2, .f32⟩
  | .hbm, ⟨108, _⟩ => ⟨S1x2, .f32⟩
  | .hbm, ⟨109, _⟩ => ⟨S500000x2, .f32⟩
  | .hbm, ⟨110, _⟩ => ⟨S1x8, .f32⟩
  | .hbm, ⟨111, _⟩ => ⟨S500000x8, .f32⟩
  | .local _ .vmem, ⟨0, _⟩ => ⟨S5000x128, .f32⟩
  | .local _ .vmem, ⟨1, _⟩ => ⟨S5000x128, .f32⟩
  | .local _ .vmem, ⟨2, _⟩ => ⟨S128x4, .f32⟩
  | .local _ .vmem, ⟨3, _⟩ => ⟨S5000x4, .f32⟩
  | .local _ .vmem, ⟨4, _⟩ => ⟨S5000x4, .f32⟩
  | .local _ .vmem, ⟨5, _⟩ => ⟨S5000x4, .f32⟩
  | .local _ .vmem, ⟨6, _⟩ => ⟨S5000x4, .f32⟩
  | .local _ .vmem, ⟨7, _⟩ => ⟨S1x4, .f32⟩
  | .local _ .vmem, ⟨8, _⟩ => ⟨S5000x4, .f32⟩
  | .local _ .vmem, ⟨9, _⟩ => ⟨S5000x4, .f32⟩
  | .local _ .vmem, ⟨10, _⟩ => ⟨S5000x4, .f32⟩
  | .local _ .vmem, ⟨11, _⟩ => ⟨S5000x4, .f32⟩
  | .local _ .vmem, ⟨12, _⟩ => ⟨S4x4, .f32⟩
  | .local _ .vmem, ⟨13, _⟩ => ⟨S5000x4, .f32⟩
  | .local _ .vmem, ⟨14, _⟩ => ⟨S5000x4, .f32⟩
  | .local _ .vmem, ⟨15, _⟩ => ⟨S5000x4, .f32⟩
  | .local _ .vmem, ⟨16, _⟩ => ⟨S5000x4, .f32⟩
  | .local _ .vmem, ⟨17, _⟩ => ⟨S1x4, .f32⟩
  | .local _ .vmem, ⟨18, _⟩ => ⟨S5000x4, .f32⟩
  | .local _ .vmem, ⟨19, _⟩ => ⟨S5000x4, .f32⟩
  | .local _ .vmem, ⟨20, _⟩ => ⟨S5000x4, .f32⟩
  | .local _ .vmem, ⟨21, _⟩ => ⟨S5000x4, .f32⟩
  | .local _ .vmem, ⟨22, _⟩ => ⟨S4x2, .f32⟩
  | .local _ .vmem, ⟨23, _⟩ => ⟨S5000x2, .f32⟩
  | .local _ .vmem, ⟨24, _⟩ => ⟨S5000x2, .f32⟩
  | .local _ .vmem, ⟨25, _⟩ => ⟨S5000x2, .f32⟩
  | .local _ .vmem, ⟨26, _⟩ => ⟨S5000x2, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | .local _ .vmem, ⟨30, _⟩ => ⟨S5000x2, .f32⟩
  | .local _ .vmem, ⟨31, _⟩ => ⟨S5000x2, .f32⟩
  | .local _ .vmem, ⟨32, _⟩ => ⟨S2x8, .f32⟩
  | .local _ .vmem, ⟨33, _⟩ => ⟨S1x8, .f32⟩
  | .local _ .vmem, ⟨34, _⟩ => ⟨S5000x8, .f32⟩
  | .local _ .vmem, ⟨35, _⟩ => ⟨S5000x8, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x8 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S5000x4_S5000x4_0_0 : ∀ a, (![0, 0] : Fin 2 → Nat) a + S5000x4.size a ≤ S5000x4.size a
  h_S5000x4 : 0 < S5000x4.numel
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  shapeCasts_S4_S1x4 : S4.ShapeCasts S1x4
  shapeCasts_S5000x4_S5000x4 : S5000x4.ShapeCasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S5000x2_S5000x2_0_0 : ∀ a, (![0, 0] : Fin 2 → Nat) a + S5000x2.size a ≤ S5000x2.size a
  h_S5000x2 : 0 < S5000x2.numel
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  shapeCasts_S8_S1x8 : S8.ShapeCasts S1x8
  inb_S2x8_S2x8_0_0 : ∀ a, (![0, 0] : Fin 2 → Nat) a + S2x8.size a ≤ S2x8.size a
  h_S2x8 : 0 < S2x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S5000x128_S128x4_S5000x4_1_0_0_1_n_n_wf : DotDims.WF S5000x128 S128x4 S5000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S5000x4_S4x4_S5000x4_1_0_0_1_n_n_wf : DotDims.WF S5000x4 S4x4 S5000x4 [1] [0] [0] [1] [] []
  dot_S5000x4_S4x2_S5000x2_1_0_0_1_n_n_wf : DotDims.WF S5000x4 S4x2 S5000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1
  dot_S5000x2_S2x8_S5000x8_1_0_0_1_n_n_wf : DotDims.WF S5000x2 S2x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S500000x4.size a
  hwx0_2 : ∀ i : grid0.Coords, EltTy.bits .f32 = 32 ∨ (Rect.block (s := S500000x4) S5000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S500000x4.size a
  hwx1_0 : ∀ i : grid1.Coords, EltTy.bits .f32 = 32 ∨ (Rect.block (s := S500000x4) S5000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S500000x4.size a
  hwx1_2 : ∀ i : grid1.Coords, EltTy.bits .f32 = 32 ∨ (Rect.block (s := S500000x4) S5000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x4.size a ≤ S500000x4.size a
  hwx2_0 : ∀ i : grid2.Coords, EltTy.bits .f32 = 32 ∨ (Rect.block (s := S500000x4) S5000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .f32 = 32 ∨ (Rect.block (s := S4x4) S4x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x4.size a ≤ S500000x4.size a
  hwx2_2 : ∀ i : grid2.Coords, EltTy.bits .f32 = 32 ∨ (Rect.block (s := S500000x4) S5000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x4.size a ≤ S500000x4.size a
  hwx3_0 : ∀ i : grid3.Coords, EltTy.bits .f32 = 32 ∨ (Rect.block (s := S500000x4) S5000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x4.size a ≤ S500000x4.size a
  hwx3_2 : ∀ i : grid3.Coords, EltTy.bits .f32 = 32 ∨ (Rect.block (s := S500000x4) S5000x4.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x4.size a ≤ S500000x4.size a
  hwx4_0 : ∀ i : grid4.Coords, EltTy.bits .f32 = 32 ∨ (Rect.block (s := S500000x4) S5000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x2.size a ≤ S4x2.size a
  hwx4_1 : ∀ i : grid4.Coords, EltTy.bits .f32 = 32 ∨ (Rect.block (s := S4x2) S4x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S500000x2.size a
  hwx4_2 : ∀ i : grid4.Coords, EltTy.bits .f32 = 32 ∨ (Rect.block (s := S500000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S500000x2.size a
  hwx5_0 : ∀ i : grid5.Coords, EltTy.bits .f32 = 32 ∨ (Rect.block (s := S500000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x2.size a ≤ S500000x2.size a
  hwx5_2 : ∀ i : grid5.Coords, EltTy.bits .f32 = 32 ∨ (Rect.block (s := S500000x2) S5000x2.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x2.size a ≤ S500000x2.size a
  hwx6_0 : ∀ i : grid6.Coords, EltTy.bits .f32 = 32 ∨ (Rect.block (s := S500000x2) S5000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x8.size a ≤ S2x8.size a
  hwx6_1 : ∀ i : grid6.Coords, EltTy.bits .f32 = 32 ∨ (Rect.block (s := S2x8) S2x8.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x8.size a ≤ S1x8.size a
  hwx6_2 : ∀ i : grid6.Coords, EltTy.bits .f32 = 32 ∨ (Rect.block (s := S1x8) S1x8.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x8.size a ≤ S500000x8.size a
  hwx6_3 : ∀ i : grid6.Coords, EltTy.bits .f32 = 32 ∨ (Rect.block (s := S500000x8) S5000x8.size (cc6_transform_3 i) (hinb6_3 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S5000x4_S4x4_S5000x4_1_0_0_1_n_n : DotDims S5000x4 S4x4 S5000x4 where
  lhsContracting := [1]
  rhsContracting := [0]
  lhsNonContracting := [0]
  rhsNonContracting := [1]
  lhsBatch := []
  rhsBatch := []
  wf := dot_S5000x4_S4x4_S5000x4_1_0_0_1_n_n_wf
def dot_S5000x4_S4x2_S5000x2_1_0_0_1_n_n : DotDims S5000x4 S4x2 S5000x2 where
  lhsContracting := [1]
  rhsContracting := [0]
  lhsNonContracting := [0]
  rhsNonContracting := [1]
  lhsBatch := []
  rhsBatch := []
  wf := dot_S5000x4_S4x2_S5000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf
def dot_S5000x2_S2x8_S5000x8_1_0_0_1_n_n : DotDims S5000x2 S2x8 S5000x8 where
  lhsContracting := [1]
  rhsContracting := [0]
  lhsNonContracting := [0]
  rhsNonContracting := [1]
  lhsBatch := []
  rhsBatch := []
  wf := dot_S5000x2_S2x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x4.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S4x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S2x8.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x8.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S5000x8.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x8 : Shape := ⟨2, ![2, 8]⟩
abbrev S8 : Shape := ⟨1, ![8]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S16500000x4 : Shape := ⟨2, ![16500000, 4]⟩
abbrev S1x4 : Shape := ⟨2, ![1, 4]⟩
abbrev S500000x2 : Shape := ⟨2, ![500000, 2]⟩
abbrev S16500000x2 : Shape := ⟨2, ![16500000, 2]⟩
abbrev S1x2 : Shape := ⟨2, ![1, 2]⟩
abbrev S500000x8 : Shape := ⟨2, ![500000, 8]⟩
abbrev S1x8 : Shape := ⟨2, ![1, 8]⟩

abbrev nBuf : Space → Nat
  | .hbm => 120
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x8, .f32⟩
  | .hbm, ⟨9, _⟩ => ⟨S8, .f32⟩
  | .hbm, ⟨10, _⟩ => ⟨S500000, .i32⟩
  | .hbm, ⟨11, _⟩ => ⟨S1x16000000, .i32⟩
  | .hbm, ⟨12, _⟩ => ⟨S16000000, .i32⟩
  | .hbm, ⟨13, _⟩ => ⟨S16500000, .i32⟩
  | .hbm, ⟨14, _⟩ => ⟨S1x16000000, .i32⟩
  | .hbm, ⟨15, _⟩ => ⟨S16000000, .i32⟩
  | .hbm, ⟨16, _⟩ => ⟨S16500000, .i32⟩
  | .hbm, ⟨17, _⟩ => ⟨S_, .f32⟩
  | .hbm, ⟨18, _⟩ => ⟨S16500000, .f32⟩
  | .hbm, ⟨19, _⟩ => ⟨S_, .f32⟩
  | .hbm, ⟨20, _⟩ => ⟨S500000, .f32⟩
  | .hbm, ⟨21, _⟩ => ⟨S16500000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .i1⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S500000, .f32⟩
  | .hbm, ⟨30, _⟩ => ⟨S_, .f32⟩
  | .hbm, ⟨31, _⟩ => ⟨S_, .f32⟩
  | .hbm, ⟨32, _⟩ => ⟨S500000, .f32⟩
  | .hbm, ⟨33, _⟩ => ⟨S500000, .f32⟩
  | .hbm, ⟨34, _⟩ => ⟨S_, .i32⟩
  | .hbm, ⟨35, _⟩ => ⟨S16500000, .i32⟩
  | .hbm, ⟨36, _⟩ => ⟨S16500000, .i1⟩
  | .hbm, ⟨37, _⟩ => ⟨S_, .i32⟩
  | .hbm, ⟨38, _⟩ => ⟨S16500000, .i32⟩
  | .hbm, ⟨39, _⟩ => ⟨S16500000, .i32⟩
  | .hbm, ⟨40, _⟩ => ⟨S16500000, .i32⟩
  | .hbm, ⟨41, _⟩ => ⟨S16500000x1, .i32⟩
  | .hbm, ⟨42, _⟩ => ⟨S16500000, .f32⟩
  | .hbm, ⟨43, _⟩ => ⟨S_, .i32⟩
  | .hbm, ⟨44, _⟩ => ⟨S16500000, .i32⟩
  | .hbm, ⟨45, _⟩ => ⟨S16500000, .i1⟩
  | .hbm, ⟨46, _⟩ => ⟨S_, .i32⟩
  | .hbm, ⟨47, _⟩ => ⟨S16500000, .i32⟩
  | .hbm, ⟨48, _⟩ => ⟨S16500000, .i32⟩
  | .hbm, ⟨49, _⟩ => ⟨S16500000, .i32⟩
  | .hbm, ⟨50, _⟩ => ⟨S16500000x1, .i32⟩
  | .hbm, ⟨51, _⟩ => ⟨S16500000, .f32⟩
  | .hbm, ⟨52, _⟩ => ⟨S16500000, .f32⟩
  | .hbm, ⟨53, _⟩ => ⟨S500000x4, .f32⟩
  | .hbm, ⟨54, _⟩ => ⟨S_, .i32⟩
  | .hbm, ⟨55, _⟩ => ⟨S16500000, .i32⟩
  | .hbm, ⟨56, _⟩ => ⟨S16500000, .i1⟩
  | .hbm, ⟨57, _⟩ => ⟨S_, .i32⟩
  | .hbm, ⟨58, _⟩ => ⟨S16500000, .i32⟩
  | .hbm, ⟨59, _⟩ => ⟨S16500000, .i32⟩
  | .hbm, ⟨60, _⟩ => ⟨S16500000, .i32⟩
  | .hbm, ⟨61, _⟩ => ⟨S16500000x1, .i32⟩
  | .hbm, ⟨62, _⟩ => ⟨S16500000x4, .f32⟩
  | .hbm, ⟨63, _⟩ => ⟨S16500000x1, .f32⟩
  | .hbm, ⟨64, _⟩ => ⟨S16500000x4, .f32⟩
  | .hbm, ⟨65, _⟩ => ⟨S16500000x4, .f32⟩
  | .hbm, ⟨66, _⟩ => ⟨S_, .f32⟩
  | .hbm, ⟨67, _⟩ => ⟨S500000x4, .f32⟩
  | .hbm, ⟨68, _⟩ => ⟨S16500000x1, .i32⟩
  | .hbm, ⟨69, _⟩ => ⟨S500000x4, .f32⟩
  | .hbm, ⟨70, _⟩ => ⟨S1x4, .f32⟩
  | .hbm, ⟨71, _⟩ => ⟨S500000x4, .f32⟩
  | .hbm, ⟨72, _⟩ => ⟨S500000x4, .f32⟩
  | .hbm, ⟨73, _⟩ => ⟨S500000x4, .f32⟩
  | .hbm, ⟨74, _⟩ => ⟨S500000x4, .f32⟩
  | .hbm, ⟨75, _⟩ => ⟨S_, .i32⟩
  | .hbm, ⟨76, _⟩ => ⟨S16500000, .i32⟩
  | .hbm, ⟨77, _⟩ => ⟨S16500000, .i1⟩
  | .hbm, ⟨78, _⟩ => ⟨S_, .i32⟩
  | .hbm, ⟨79, _⟩ => ⟨S16500000, .i32⟩
  | .hbm, ⟨80, _⟩ => ⟨S16500000, .i32⟩
  | .hbm, ⟨81, _⟩ => ⟨S16500000, .i32⟩
  | .hbm, ⟨82, _⟩ => ⟨S16500000x1, .i32⟩
  | .hbm, ⟨83, _⟩ => ⟨S16500000x4, .f32⟩
  | .hbm, ⟨84, _⟩ => ⟨S16500000x1, .f32⟩
  | .hbm, ⟨85, _⟩ => ⟨S16500000x4, .f32⟩
  | .hbm, ⟨86, _⟩ => ⟨S16500000x4, .f32⟩
  | .hbm, ⟨87, _⟩ => ⟨S_, .f32⟩
  | .hbm, ⟨88, _⟩ => ⟨S500000x4, .f32⟩
  | .hbm, ⟨89, _⟩ => ⟨S16500000x1, .i32⟩
  | .hbm, ⟨90, _⟩ => ⟨S500000x4, .f32⟩
  | .hbm, ⟨91, _⟩ => ⟨S1x4, .f32⟩
  | .hbm, ⟨92, _⟩ => ⟨S500000x4, .f32⟩
  | .hbm, ⟨93, _⟩ => ⟨S500000x4, .f32⟩
  | .hbm, ⟨94, _⟩ => ⟨S500000x4, .f32⟩
  | .hbm, ⟨95, _⟩ => ⟨S500000x2, .f32⟩
  | .hbm, ⟨96, _⟩ => ⟨S_, .i32⟩
  | .hbm, ⟨97, _⟩ => ⟨S16500000, .i32⟩
  | .hbm, ⟨98, _⟩ => ⟨S16500000, .i1⟩
  | .hbm, ⟨99, _⟩ => ⟨S_, .i32⟩
  | .hbm, ⟨100, _⟩ => ⟨S16500000, .i32⟩
  | .hbm, ⟨101, _⟩ => ⟨S16500000, .i32⟩
  | .hbm, ⟨102, _⟩ => ⟨S16500000, .i32⟩
  | .hbm, ⟨103, _⟩ => ⟨S16500000x1, .i32⟩
  | .hbm, ⟨104, _⟩ => ⟨S16500000x2, .f32⟩
  | .hbm, ⟨105, _⟩ => ⟨S16500000x1, .f32⟩
  | .hbm, ⟨106, _⟩ => ⟨S16500000x2, .f32⟩
  | .hbm, ⟨107, _⟩ => ⟨S16500000x2, .f32⟩
  | .hbm, ⟨108, _⟩ => ⟨S_, .f32⟩
  | .hbm, ⟨109, _⟩ => ⟨S500000x2, .f32⟩
  | .hbm, ⟨110, _⟩ => ⟨S16500000x1, .i32⟩
  | .hbm, ⟨111, _⟩ => ⟨S500000x2, .f32⟩
  | .hbm, ⟨112, _⟩ => ⟨S1x2, .f32⟩
  | .hbm, ⟨113, _⟩ => ⟨S500000x2, .f32⟩
  | .hbm, ⟨114, _⟩ => ⟨S500000x2, .f32⟩
  | .hbm, ⟨115, _⟩ => ⟨S500000x2, .f32⟩
  | .hbm, ⟨116, _⟩ => ⟨S500000x8, .f32⟩
  | .hbm, ⟨117, _⟩ => ⟨S1x8, .f32⟩
  | .hbm, ⟨118, _⟩ => ⟨S500000x8, .f32⟩
  | .hbm, ⟨119, _⟩ => ⟨S500000x8, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x128_S128x4_S500000x4_1_0_0_1_n_n_wf : DotDims.WF S500000x128 S128x4 S500000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S500000x4_S4x4_S500000x4_1_0_0_1_n_n_wf : DotDims.WF S500000x4 S4x4 S500000x4 [1] [0] [0] [1] [] []
  dot_S500000x4_S4x2_S500000x2_1_0_0_1_n_n_wf : DotDims.WF S500000x4 S4x2 S500000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1
  dot_S500000x2_S2x8_S500000x8_1_0_0_1_n_n_wf : DotDims.WF S500000x2 S2x8 S500000x8 [1] [0] [0] [1] [] []

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S500000x4_S4x4_S500000x4_1_0_0_1_n_n : DotDims S500000x4 S4x4 S500000x4 where
  lhsContracting := [1]
  rhsContracting := [0]
  lhsNonContracting := [0]
  rhsNonContracting := [1]
  lhsBatch := []
  rhsBatch := []
  wf := dot_S500000x4_S4x4_S500000x4_1_0_0_1_n_n_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf
def dot_S500000x2_S2x8_S500000x8_1_0_0_1_n_n : DotDims S500000x2 S2x8 S500000x8 where
  lhsContracting := [1]
  rhsContracting := [0]
  lhsNonContracting := [0]
  rhsNonContracting := [1]
  lhsBatch := []
  rhsBatch := []
  wf := dot_S500000x2_S2x8_S500000x8_1_0_0_1_n_n_wf

class Facts : Prop extends Facts₀ where

variable [Facts]
-- ==== Proof.KernelRun.lean ====
/-
  The idealized kernel's run, with both result arrays named.

  @main is fourteen segments: stretches of host operations and seven grid launches. The contents of the
  device's buffers at each boundary between segments are a fold from the launch memory: a host stretch
  applies its operations in order, a launch leaves each of its arrays at what its write-backs leave and
  every other buffer as it was. Every weakly fair execution terminates, without a fault, with every
  unscoped buffer at the last boundary's contents; read at the two result buffers and at the ten
  argument buffers (which no segment writes) this is the statement below.
-/
import proofs.«140898_j70093866270993_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the two results at the last boundary's contents and the
    arguments as launched. -/
theorem run_results : θ_run defs (onTc (τ := τ) (main (F := F))) ⟨m, fun _ => 0, ρ⟩ (fun r => ∀ c : Dev nD,
      r.2.mem ((c.tc : Thread nD τ).loc main_v81) = W14 m ρ c (Proc.devRef .tc main_v81)
      ∧ r.2.mem ((c.tc : Thread nD τ).loc main_v79) = W14 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v81 (by decide)),
       h c _ (mem_uc main_v79 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.RunValue

end
-- ==== Proof.Spec.lean ====
/-
  The network both programs compute, as one function of the ten argument arrays.

  The graph has 500000 nodes and 16000000 directed edges given as two rows of node numbers; every node also gets
  a loop to itself, so there are 16500000 edge slots with source numbers `srcIdx` and destination numbers `dstIdx`.
  The degree of a node is the number of slots pointing at it; the weight of a slot is
  1/sqrt(deg(source)) · 1/sqrt(deg(destination)) (`edgeNorm`; a node of degree 0 would get 0).
  One aggregation sends a table `hw` of per-node rows to: node v ↦ the sum, over the slots whose destination is v, of
  weight(slot) · hw(source(slot)) (`aggregate4`, `aggregate2` for rows of width 4 and 2).
  A layer is tanh(aggregate(h · W) + b), the bias row added to every node's row; the embedding is three layers deep
  (128 → 4 → 4 → 2), and the result is embedding · Wc + bc. Every piece is written with the host operations exactly as
  the reference program spells them, so that its composed term is this function by unfolding alone.
-/
import proofs.«140898_j70093866270993_1_alg».proof.ReferenceIdeal
import proofs.«140898_j70093866270993_1_alg».proof.Proof.Gen.ReferenceIdeal

noncomputable section

namespace Cert.GraphConv

open Cert.ReferenceIdeal Cert.ReferenceIdeal.Gen Idealize.ShloMosaic Idealize.ShloMosaic.TcCoe Idealize.SL.Sem

variable {F : FTy → Type} [FloatOps F]

/-- The source node of every edge slot: the first row of the edge list, then each node once (its loop). -/
def srcIdx (e : (⟨S2x16000000, .i32⟩ : BufTy).Contents (Elt F)) : (⟨S16500000, .i32⟩ : BufTy).Contents (Elt F) :=
  (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0)

/-- The destination node of every edge slot: the second row of the edge list, then each node once. -/
def dstIdx (e : (⟨S2x16000000, .i32⟩ : BufTy).Contents (Elt F)) : (⟨S16500000, .i32⟩ : BufTy).Contents (Elt F) :=
  (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)

/-- The weight of every edge slot: the inverse square roots of the degrees of its two ends, multiplied. -/
def edgeNorm (s d : (⟨S16500000, .i32⟩ : BufTy).Contents (Elt F)) : (⟨S16500000, .f32⟩ : BufTy).Contents (Elt F) :=
  (mulf (Host.gather gather_S500000_S16500000x1_S16500000_n_0_n_n_0_1_1 (select (cmpf (F := F) .ogt (Host.scatterAdd scatter_S500000_S16500000x1_S16500000_n_0_0_1 (broadcastInDim S500000 ![] bcast_S_S500000 (constant S_ .f32 0x00000000#32)) (broadcastInDim S16500000x1 ![0] bcast_S16500000_S16500000x1_0 d) (broadcastInDim S16500000 ![] bcast_S_S16500000 (constant S_ .f32 0x3F800000#32))) (broadcastInDim S500000 ![] bcast_S_S500000 (constant S_ .f32 0x00000000#32))) (Host.rsqrt (maximumf (Host.scatterAdd scatter_S500000_S16500000x1_S16500000_n_0_0_1 (broadcastInDim S500000 ![] bcast_S_S500000 (constant S_ .f32 0x00000000#32)) (broadcastInDim S16500000x1 ![0] bcast_S16500000_S16500000x1_0 d) (broadcastInDim S16500000 ![] bcast_S_S16500000 (constant S_ .f32 0x3F800000#32))) (broadcastInDim S500000 ![] bcast_S_S500000 (constant S_ .f32 0x3F800000#32)))) (broadcastInDim S500000 ![] bcast_S_S500000 (id (constant S_ .f32 0x00000000#32)))) (broadcastInDim S16500000x1 ![0] bcast_S16500000_S16500000x1_0 (select (cmpi .slt s (broadcastInDim S16500000 ![] bcast_S_S16500000 (constantI S_ 32 0#32))) (addi s (broadcastInDim S16500000 ![] bcast_S_S16500000 (constantI S_ 32 500000#32))) s))) (Host.gather gather_S500000_S16500000x1_S16500000_n_0_n_n_0_1_1 (select (cmpf (F := F) .ogt (Host.scatterAdd scatter_S500000_S16500000x1_S16500000_n_0_0_1 (broadcastInDim S500000 ![] bcast_S_S500000 (constant S_ .f32 0x00000000#32)) (broadcastInDim S16500000x1 ![0] bcast_S16500000_S16500000x1_0 d) (broadcastInDim S16500000 ![] bcast_S_S16500000 (constant S_ .f32 0x3F800000#32))) (broadcastInDim S500000 ![] bcast_S_S500000 (constant S_ .f32 0x00000000#32))) (Host.rsqrt (maximumf (Host.scatterAdd scatter_S500000_S16500000x1_S16500000_n_0_0_1 (broadcastInDim S500000 ![] bcast_S_S500000 (constant S_ .f32 0x00000000#32)) (broadcastInDim S16500000x1 ![0] bcast_S16500000_S16500000x1_0 d) (broadcastInDim S16500000 ![] bcast_S_S16500000 (constant S_ .f32 0x3F800000#32))) (broadcastInDim S500000 ![] bcast_S_S500000 (constant S_ .f32 0x3F800000#32)))) (broadcastInDim S500000 ![] bcast_S_S500000 (id (constant S_ .f32 0x00000000#32)))) (broadcastInDim S16500000x1 ![0] bcast_S16500000_S16500000x1_0 (select (cmpi .slt d (broadcastInDim S16500000 ![] bcast_S_S16500000 (constantI S_ 32 0#32))) (addi d (broadcastInDim S16500000 ![] bcast_S_S16500000 (constantI S_ 32 500000#32))) d))))

/-- One aggregation of rows of width 4: gather each slot's source row, scale it by the slot's weight, add it into the
    destination's row. -/
def aggregate4 (s d : (⟨S16500000, .i32⟩ : BufTy).Contents (Elt F)) (n : (⟨S16500000, .f32⟩ : BufTy).Contents (Elt F)) (hw : (⟨S500000x4, .f32⟩ : BufTy).Contents (Elt F)) : (⟨S500000x4, .f32⟩ : BufTy).Contents (Elt F) :=
  (Host.scatterAdd scatter_S500000x4_S16500000x1_S16500000x4_1_0_0_1 (broadcastInDim S500000x4 ![] bcast_S_S500000x4 (constant S_ .f32 0x00000000#32)) (broadcastInDim S16500000x1 ![0] bcast_S16500000_S16500000x1_0 d) (mulf (Host.gather gather_S500000x4_S16500000x1_S16500000x4_1_0_n_n_0_1_14 hw (broadcastInDim S16500000x1 ![0] bcast_S16500000_S16500000x1_0 (select (cmpi .slt s (broadcastInDim S16500000 ![] bcast_S_S16500000 (constantI S_ 32 0#32))) (addi s (broadcastInDim S16500000 ![] bcast_S_S16500000 (constantI S_ 32 500000#32))) s))) (broadcastInDim S16500000x4 ![0, 1] bcast_S16500000x1_S16500000x4_0_1 (broadcastInDim S16500000x1 ![0] bcast_S16500000_S16500000x1_0 n))))

/-- The same for rows of width 2. -/
def aggregate2 (s d : (⟨S16500000, .i32⟩ : BufTy).Contents (Elt F)) (n : (⟨S16500000, .f32⟩ : BufTy).Contents (Elt F)) (hw : (⟨S500000x2, .f32⟩ : BufTy).Contents (Elt F)) : (⟨S500000x2, .f32⟩ : BufTy).Contents (Elt F) :=
  (Host.scatterAdd scatter_S500000x2_S16500000x1_S16500000x2_1_0_0_1 (broadcastInDim S500000x2 ![] bcast_S_S500000x2 (constant S_ .f32 0x00000000#32)) (broadcastInDim S16500000x1 ![0] bcast_S16500000_S16500000x1_0 d) (mulf (Host.gather gather_S500000x2_S16500000x1_S16500000x2_1_0_n_n_0_1_12 hw (broadcastInDim S16500000x1 ![0] bcast_S16500000_S16500000x1_0 (select (cmpi .slt s (broadcastInDim S16500000 ![] bcast_S_S16500000 (constantI S_ 32 0#32))) (addi s (broadcastInDim S16500000 ![] bcast_S_S16500000 (constantI S_ 32 500000#32))) s))) (broadcastInDim S16500000x2 ![0, 1] bcast_S16500000x1_S16500000x2_0_1 (broadcastInDim S16500000x1 ![0] bcast_S16500000_S16500000x1_0 n))))

/-- A layer's output of width 4: tanh of the aggregate plus the bias row. -/
def layer4 (s d : (⟨S16500000, .i32⟩ : BufTy).Contents (Elt F)) (n : (⟨S16500000, .f32⟩ : BufTy).Contents (Elt F)) (hw : (⟨S500000x4, .f32⟩ : BufTy).Contents (Elt F)) (b : (⟨S4, .f32⟩ : BufTy).Contents (Elt F)) : (⟨S500000x4, .f32⟩ : BufTy).Contents (Elt F) :=
  Host.tanh (addf (aggregate4 s d n hw) (broadcastInDim S500000x4 ![0, 1] bcast_S1x4_S500000x4_0_1 (broadcastInDim S1x4 ![1] bcast_S4_S1x4_1 b)))

/-- A layer's output of width 2. -/
def layer2 (s d : (⟨S16500000, .i32⟩ : BufTy).Contents (Elt F)) (n : (⟨S16500000, .f32⟩ : BufTy).Contents (Elt F)) (hw : (⟨S500000x2, .f32⟩ : BufTy).Contents (Elt F)) (b : (⟨S2, .f32⟩ : BufTy).Contents (Elt F)) : (⟨S500000x2, .f32⟩ : BufTy).Contents (Elt F) :=
  Host.tanh (addf (aggregate2 s d n hw) (broadcastInDim S500000x2 ![0, 1] bcast_S1x2_S500000x2_0_1 (broadcastInDim S1x2 ![1] bcast_S2_S1x2_1 b)))

/-- The three-layer embedding of the nodes. -/
def embedding (x : (⟨S500000x128, .f32⟩ : BufTy).Contents (Elt F)) (e : (⟨S2x16000000, .i32⟩ : BufTy).Contents (Elt F)) (W1 : (⟨S128x4, .f32⟩ : BufTy).Contents (Elt F)) (b1 : (⟨S4, .f32⟩ : BufTy).Contents (Elt F))
    (W2 : (⟨S4x4, .f32⟩ : BufTy).Contents (Elt F)) (b2 : (⟨S4, .f32⟩ : BufTy).Contents (Elt F)) (W3 : (⟨S4x2, .f32⟩ : BufTy).Contents (Elt F)) (b3 : (⟨S2, .f32⟩ : BufTy).Contents (Elt F)) : (⟨S500000x2, .f32⟩ : BufTy).Contents (Elt F) :=
  layer2 (srcIdx e) (dstIdx e) (edgeNorm (srcIdx e) (dstIdx e))
    (Host.dotGeneral dot_S500000x4_S4x2_S500000x2_1_0_0_1_n_n none
      (layer4 (srcIdx e) (dstIdx e) (edgeNorm (srcIdx e) (dstIdx e))
        (Host.dotGeneral dot_S500000x4_S4x4_S500000x4_1_0_0_1_n_n none
          (layer4 (srcIdx e) (dstIdx e) (edgeNorm (srcIdx e) (dstIdx e))
            (Host.dotGeneral dot_S500000x128_S128x4_S500000x4_1_0_0_1_n_n none x W1) b1) W2) b2) W3) b3

/-- The classifier's scores from an embedding. -/
def scores (emb : (⟨S500000x2, .f32⟩ : BufTy).Contents (Elt F)) (Wc : (⟨S2x8, .f32⟩ : BufTy).Contents (Elt F)) (bc : (⟨S8, .f32⟩ : BufTy).Contents (Elt F)) : (⟨S500000x8, .f32⟩ : BufTy).Contents (Elt F) :=
  addf (Host.dotGeneral dot_S500000x2_S2x8_S500000x8_1_0_0_1_n_n none emb Wc) (broadcastInDim S500000x8 ![0, 1] bcast_S1x8_S500000x8_0_1 (broadcastInDim S1x8 ![1] bcast_S8_S1x8_1 bc))

end Cert.GraphConv

end
-- ==== Proof.Boundaries.lean ====
/-
  The contents of the kernel program's buffers at the boundaries between @main's segments.

  Three kinds of fact, each for any float instance. (1) A buffer that no operation of a host stretch writes, and that
  is not an array of a grid launch, holds after the segment what it held before it; chained, an argument array holds
  its launch contents at the boundary where it is read, and the two index arrays and the edge weights computed before
  the first launch still hold their values where each aggregation reads them. (2) What the first three host stretches
  leave in those three arrays: the source numbers, the destination numbers and the weights of the edge slots, as
  functions of the edge list. (3) What each later host stretch computes from the contents it starts from: one
  aggregation of the table the preceding launch left, and the bias vector laid as one row.
-/
import proofs.«140898_j70093866270993_1_alg».proof.Proof.Gen.KernelIdeal.Frame
import proofs.«140898_j70093866270993_1_alg».proof.Proof.Spec
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem
open Idealize.ShloMosaic.StableHlo (after)

variable {F : FTy → Type} [FloatOps F]

/-- A buffer that none of a stretch's operations writes keeps its contents: every operation's written buffer is
    another reference. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt F) ℓ) (ρ : Dev nD → PrngReg)

/-! ## Buffers carried unchanged across segments -/

theorem keep_main_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0

theorem keep_main_arg2_3_0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0

theorem keep_main_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0

theorem keep_main_arg4_6_0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0

theorem keep_main_arg5_7_0 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0

theorem keep_main_arg6_9_0 (c : Dev nD) : W9 m ρ c (Proc.devRef .tc main_arg6) = W0 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := by host_keeps hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0

theorem keep_main_arg7_10_0 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0

theorem keep_main_arg9_12_0 (c : Dev nD) : W12 m ρ c (Proc.devRef .tc main_arg9) = W0 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := by host_keeps hostOps5
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by host_keeps hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0

theorem keep_main_arg8_13_0 (c : Dev nD) : W13 m ρ c (Proc.devRef .tc main_arg8) = W0 m ρ c (Proc.devRef .tc main_arg8) :=
  calc W13 m ρ c (Proc.devRef .tc main_arg8)
    _ = W12 m ρ c (Proc.devRef .tc main_arg8) := by host_keeps hostOps6
    _ = W11 m ρ c (Proc.devRef .tc main_arg8) := W12_of_ne m ρ c main_arg8 (by decide)
    _ = W10 m ρ c (Proc.devRef .tc main_arg8) := by host_keeps hostOps5
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by host_keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0

theorem keep_main_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_main_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_main_v31_4_3 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem keep_main_v3_7_4 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1

theorem keep_main_v6_7_4 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1

theorem keep_main_v31_7_4 (c : Dev nD) : W7 m ρ c (Proc.devRef .tc main_v31) = W4 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by host_keeps hostOps1

theorem keep_main_v3_10_7 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keeps hostOps3

theorem keep_main_v6_10_7 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keeps hostOps3

theorem keep_main_v31_10_7 (c : Dev nD) : W10 m ρ c (Proc.devRef .tc main_v31) = W7 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := by host_keeps hostOps3

theorem keep_main_v79_13_12 (c : Dev nD) : W13 m ρ c (Proc.devRef .tc main_v79) = W12 m ρ c (Proc.devRef .tc main_v79) :=
  calc W13 m ρ c (Proc.devRef .tc main_v79)
    _ = W12 m ρ c (Proc.devRef .tc main_v79) := by host_keeps hostOps6

/-- The second result is an input array of the last launch, which leaves its inputs as it found them. -/
theorem keep_main_v79_14_13 (c : Dev nD) : W14 m ρ c (Proc.devRef .tc main_v79) = W13 m ρ c (Proc.devRef .tc main_v79) :=
  (W14_arr m ρ c 0).trans (((dat6 (V13 m ρ) c).arrAt_in 0 rfl _).trans (A_eq6 (V13 m ρ) c 0))

/-! ## What the host stretches compute -/

section Stretches
variable (V : Valuation τ sig (Elt F))

set_option maxHeartbeats 1000000 in
/-- The stretch after the first launch: one aggregation of the launch's table. -/
theorem agg_after1 : after hostOps1 V (Proc.devRef .tc main_v45)
    = Cert.GraphConv.aggregate4 (V (Proc.devRef .tc main_v3)) (V (Proc.devRef .tc main_v6)) (V (Proc.devRef .tc main_v31)) (V (Proc.devRef .tc main_v32)) := by
  after_results_simp
  rfl
theorem bias_after1 : after hostOps1 V (Proc.devRef .tc main_v46) = shapeCast S1x4 (V (Proc.devRef .tc main_arg3)) shapeCasts_S4_S1x4 := by
  after_results
  rfl
set_option maxHeartbeats 1000000 in
theorem agg_after3 : after hostOps3 V (Proc.devRef .tc main_v61)
    = Cert.GraphConv.aggregate4 (V (Proc.devRef .tc main_v3)) (V (Proc.devRef .tc main_v6)) (V (Proc.devRef .tc main_v31)) (V (Proc.devRef .tc main_v48)) := by
  after_results_simp
  rfl
theorem bias_after3 : after hostOps3 V (Proc.devRef .tc main_v62) = shapeCast S1x4 (V (Proc.devRef .tc main_arg5)) shapeCasts_S4_S1x4 := by
  after_results
  rfl
set_option maxHeartbeats 1000000 in
theorem agg_after5 : after hostOps5 V (Proc.devRef .tc main_v77)
    = Cert.GraphConv.aggregate2 (V (Proc.devRef .tc main_v3)) (V (Proc.devRef .tc main_v6)) (V (Proc.devRef .tc main_v31)) (V (Proc.devRef .tc main_v64)) := by
  after_results_simp
  rfl
theorem bias_after5 : after hostOps5 V (Proc.devRef .tc main_v78) = shapeCast S1x2 (V (Proc.devRef .tc main_arg7)) shapeCasts_S2_S1x2 := by
  after_results
  rfl
theorem bias_after6 : after hostOps6 V (Proc.devRef .tc main_v80) = shapeCast S1x8 (V (Proc.devRef .tc main_arg9)) shapeCasts_S8_S1x8 := by
  after_results
  rfl

end Stretches

/-! ## The edge slots' numbers and weights, as the first launch finds them -/

theorem src_at3 (c : Dev nD) : W3 m ρ c (Proc.devRef .tc main_v3) = Cert.GraphConv.srcIdx (m ((c : Thread nD τ).loc main_arg1)) := by
  show after hostOps0_2 (after hostOps0_1 (after hostOps0 (W0 m ρ c))) (Proc.devRef .tc main_v3) = _
  after_results
  rfl
theorem dst_at3 (c : Dev nD) : W3 m ρ c (Proc.devRef .tc main_v6) = Cert.GraphConv.dstIdx (m ((c : Thread nD τ).loc main_arg1)) := by
  show after hostOps0_2 (after hostOps0_1 (after hostOps0 (W0 m ρ c))) (Proc.devRef .tc main_v6) = _
  after_results
  rfl
theorem norm_at3 (c : Dev nD) : W3 m ρ c (Proc.devRef .tc main_v31)
    = Cert.GraphConv.edgeNorm (Cert.GraphConv.srcIdx (m ((c : Thread nD τ).loc main_arg1))) (Cert.GraphConv.dstIdx (m ((c : Thread nD τ).loc main_arg1))) := by
  show after hostOps0_2 (after hostOps0_1 (after hostOps0 (W0 m ρ c))) (Proc.devRef .tc main_v31) = _
  after_results_simp
  rfl

end Cert.KernelIdeal.Boundaries

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.MatmulRegion0.lean ====
/-
  The first layer's product, region by region: the result array of the first matrix-product region is the product of
  the features' array [500000, 128] and the weights' array [128, 4] as the region finds them.

  The region walks 100 grid points; point `t` takes rows `5000 t … 5000 t + 4999` of the features and the whole weights,
  and writes the block's product (operands cast to a narrower format, which changes nothing at the ideal values; a zero
  accumulator) to the same rows of the result. At an index `(r, b)` both sides are `∑ k, x(r, k) · w(k, b)`: the block's
  product at `(a, b)` reads row `5000 t + a` of the features, and row `r` is in the block of point `r / 5000`, so the
  blocks cover the result.
-/
import proofs.«140898_j70093866270993_1_alg».proof.Proof.Gen.KernelIdeal.Frame
import proofs.«140898_j70093866270993_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.MatmulRegion0

open Cert.KernelIdeal Cert.KernelIdeal.Gen Idealize.ShloMosaic Idealize.ShloMosaic.TcCoe Idealize.ShloMosaic.ValueIdx Idealize.SL.Sem
open Idealize.ShloMosaic.Pipeline (Dat Cfg Window)

/-- The origin of a rank-2 block, as the constant-zero offset. -/
theorem origin_zero : (![0, 0] : Fin 2 → Nat) = fun _ => 0 := funext fun a => by fin_cases a <;> rfl

/-- The body's result at row `a`, column `b` of a block: the sum over the 128 features of the row's entry times the
    weight's. The casts of both operands to the narrower format change nothing at the ideal values, and the accumulator
    starts at zero. -/
theorem block_product_apply (x : Vec Ideal S5000x128 .f32) (w : Vec Ideal S128x4 .f32) (a : Fin 5000) (b : Fin 4) :
    k0_pay1 (F := Ideal) x w (ix2 a b) = ∑ k : Fin 128, x (ix2 a k) * w (ix2 k b) := by
  unfold k0_pay1
  show matmul (F := Ideal) (DotDims.plain 5000 128 4) none (truncf .bf16 x bitsLt_bf16_f32) (truncf .bf16 w bitsLt_bf16_f32) (constant ⟨2, ![5000, 4]⟩ .f32 0x00000000#32) (ix2 a b) = _
  rw [Cert.MatOps.matmul_plain_zero_apply]
  rfl

/-- Where the blocks sit: at grid point `t` the row blocks (the features' and the result's) are block `t` along the
    rows and the only block along the columns; the weights' block is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- Entry `(a, k)` of the features' block at point `t` is entry `(5000 t + a, k)` of the features' array. -/
theorem rows_block_apply (t : Fin cfg0.N) (a : Fin 5000) (k : Fin 128) (r : Fin 500000) (hr : r.val = t.val * 5000 + a.val) :
    (iblk0 (F := Ideal) V c 0 t : Vec Ideal S5000x128 .f32) (ix2 a k) = (V c main_arg0 : Vec Ideal S500000x128 .f32) (ix2 r k) := by
  obtain ⟨e0, e1, -⟩ := index_facts t
  unfold iblk0
  rw [View.read_apply]
  show V c main_arg0 (((cfg0.win 0).blk t).view.emb (ix2 a k)) = V c main_arg0 (ix2 r k)
  refine congrArg (V c main_arg0) (funext fun d => Fin.ext ?_)
  match d with
  | ⟨0, _⟩ => show win0_0.index t (0 : Fin 2) * 5000 + 1 * a.val = r.val; omega
  | ⟨1, _⟩ => show win0_0.index t (1 : Fin 2) * 128 + 1 * k.val = k.val; omega

/-- The weights' block at any point is the weights' array. -/
theorem weights_block_apply (t : Fin cfg0.N) (k : Fin 128) (b : Fin 4) :
    (iblk0 (F := Ideal) V c 1 t : Vec Ideal S128x4 .f32) (ix2 k b) = (V c main_arg2 : Vec Ideal S128x4 .f32) (ix2 k b) := by
  obtain ⟨-, -, e0, e1, -⟩ := index_facts t
  unfold iblk0
  rw [View.read_apply]
  show V c main_arg2 (((cfg0.win 1).blk t).view.emb (ix2 k b)) = V c main_arg2 (ix2 k b)
  refine congrArg (V c main_arg2) (funext fun d => Fin.ext ?_)
  match d with
  | ⟨0, _⟩ => show win0_1.index t (0 : Fin 2) * 128 + 1 * k.val = k.val; omega
  | ⟨1, _⟩ => show win0_1.index t (1 : Fin 2) * 4 + 1 * b.val = b.val; omega

/-- What point `t` writes back is block `t` of the product of the two arrays as the region finds them. -/
theorem flushed_eq (t : Fin cfg0.N) :
    (dat0 (F := Ideal) V c).flushed 2 t = ((cfg0.win 2).blk t).view.read (Elt Ideal)
      (Host.dotGeneral (F := Ideal) (φ₁ := .f32) (φ₂ := .f32) (DotDims.plain 500000 128 4) none (V c main_arg0) (V c main_arg2)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x4) origin_zero]
  obtain ⟨-, -, -, -, e0, e1⟩ := index_facts t
  have hN : cfg0.N = 100 := N_0
  funext j
  obtain ⟨a, b, rfl⟩ : ∃ (a : Fin 5000) (b : Fin 4), j = ix2 a b := ⟨j 0, j 1, eq_ix2 j⟩
  have ht : t.val < 100 := hN ▸ t.isLt
  obtain ⟨r, hr⟩ : ∃ r : Fin 500000, r.val = t.val * 5000 + a.val := ⟨⟨t.val * 5000 + a.val, by have := a.isLt; omega⟩, rfl⟩
  have hemb : ((cfg0.win 2).blk t).view.emb (ix2 a b) = ix2 r b := by
    funext d; apply Fin.ext
    match d with
    | ⟨0, _⟩ => show win0_2.index t (0 : Fin 2) * 5000 + 1 * a.val = r.val; omega
    | ⟨1, _⟩ => show win0_2.index t (1 : Fin 2) * 4 + 1 * b.val = b.val; omega
  show k0_pay1 (F := Ideal) (iblk0 V c 0 t) (iblk0 V c 1 t) (ix2 a b)
    = Host.dotGeneral (F := Ideal) (φ₁ := .f32) (φ₂ := .f32) (DotDims.plain 500000 128 4) none (V c main_arg0) (V c main_arg2) (((cfg0.win 2).blk t).view.emb (ix2 a b))
  rw [hemb]
  refine (block_product_apply _ _ a b).trans ((Finset.sum_congr rfl fun k _ => ?_).trans (Cert.MatOps.dotGeneral_plain_apply none _ _ r b).symm)
  rw [rows_block_apply V c t a k r hr, weights_block_apply V c t k b]

/-- An index of the result array is in point `t`'s block iff each coordinate is in the block's range on its axis. -/
theorem mem_block (t : Fin cfg0.N) (i : S500000x4.Idx) :
    i ∈ ((cfg0.win 2).blk t).view.set ↔ ∀ a : Fin 2, win0_2.index t a * S5000x4.size a ≤ (i a).val ∧ (i a).val < win0_2.index t a * S5000x4.size a + S5000x4.size a := by
  show i ∈ ((View.whole main_v32).slice (win0_2.rect t)).set ↔ _
  rw [View.set_slice_whole, Rect.mem_set_unit]
  exact Iff.rfl

/-- Every row `r` of the result is in the block of point `r / 5000`. -/
theorem covered (i : S500000x4.Idx) : ∃ t : Fin cfg0.N, (cfg0.win 2).flush t = true ∧ i ∈ ((cfg0.win 2).blk t).view.set := by
  have hN : cfg0.N = 100 := N_0
  have hi0 : (i 0).val < 500000 := idx2_lt0 i
  have hi1 : (i 1).val < 4 := idx2_lt1 i
  obtain ⟨t, ht⟩ : ∃ t : Fin cfg0.N, t.val = (i 0).val / 5000 := ⟨⟨(i 0).val / 5000, by rw [hN]; omega⟩, rfl⟩
  obtain ⟨-, -, -, -, e0, e1⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 4 ≤ (i 1).val ∧ (i 1).val < win0_2.index t (1 : Fin 2) * 4 + 4; omega

/-- After the region the result array is the product of the features' array and the weights' array as the region found
    them: the contraction of axis 1 of the rows with axis 0 of the weights. -/
theorem array_eq :
    (dat0 (F := Ideal) V c).arrAt 2 cfg0.N
      = Host.dotGeneral (F := Ideal) (φ₁ := .f32) (φ₂ := .f32) (DotDims.plain 500000 128 4) none (V c main_arg0) (V c main_arg2) :=
  (dat0 (F := Ideal) V c).arrAt_eq_of_cover 2 _ (fun t _ => flushed_eq V c t) covered

end

end Cert.KernelIdeal.MatmulRegion0
-- ==== Proof.MatmulRegion2.lean ====
/-
  The second layer's product, region by region: the result array of the second matrix-product region is the product
  of the rows' array [500000, 4] (the first layer's activations) and the weights' array [4, 4] as the region finds them.

  The region walks 100 grid points; point `t` takes rows `5000 t … 5000 t + 4999` of the rows' array and the whole
  weights, and writes the block's product (operands cast to a narrower format, which changes nothing at the ideal
  values; a zero accumulator) to the same rows of the result. At an index `(r, b)` both sides are
  `∑ k, x(r, k) · w(k, b)`: the block's product at `(a, b)` reads row `5000 t + a`, and row `r` is in the block of point
  `r / 5000`, so the blocks cover the result.
-/
import proofs.«140898_j70093866270993_1_alg».proof.Proof.Gen.KernelIdeal.Frame
import proofs.«140898_j70093866270993_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.MatmulRegion2

open Cert.KernelIdeal Cert.KernelIdeal.Gen Idealize.ShloMosaic Idealize.ShloMosaic.TcCoe Idealize.ShloMosaic.ValueIdx Idealize.SL.Sem
open Idealize.ShloMosaic.Pipeline (Dat Cfg Window)

/-- The origin of a rank-2 block, as the constant-zero offset. -/
theorem origin_zero : (![0, 0] : Fin 2 → Nat) = fun _ => 0 := funext fun a => by fin_cases a <;> rfl

/-- The body's result at row `a`, column `b` of a block: the sum over the 4 hidden units of the row's entry times the
    weight's. The reshape of the rows' block to its own shape is the identity, the casts of both operands to the
    narrower format change nothing at the ideal values, and the accumulator starts at zero. -/
theorem block_product_apply (x : Vec Ideal S5000x4 .f32) (w : Vec Ideal S4x4 .f32) (a : Fin 5000) (b : Fin 4) :
    k2_pay1 (F := Ideal) x w (ix2 a b) = ∑ k : Fin 4, x (ix2 a k) * w (ix2 k b) := by
  unfold k2_pay1
  show matmul (F := Ideal) (DotDims.plain 5000 4 4) none (truncf .bf16 (shapeCast S5000x4 x shapeCasts_S5000x4_S5000x4) bitsLt_bf16_f32) (truncf .bf16 w bitsLt_bf16_f32) (constant ⟨2, ![5000, 4]⟩ .f32 0x00000000#32) (ix2 a b) = _
  rw [shapeCast_self, Cert.MatOps.matmul_plain_zero_apply]
  rfl

/-- Where the blocks sit: at grid point `t` the row blocks (the operand's and the result's) are block `t` along the
    rows and the only block along the columns; the weights' block is the whole array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- Entry `(a, k)` of the rows' block at point `t` is entry `(5000 t + a, k)` of the rows' array. -/
theorem rows_block_apply (t : Fin cfg2.N) (a : Fin 5000) (k : Fin 4) (r : Fin 500000) (hr : r.val = t.val * 5000 + a.val) :
    (iblk2 (F := Ideal) V c 0 t : Vec Ideal S5000x4 .f32) (ix2 a k) = (V c main_v47 : Vec Ideal S500000x4 .f32) (ix2 r k) := by
  obtain ⟨e0, e1, -⟩ := index_facts t
  unfold iblk2
  rw [View.read_apply]
  show V c main_v47 (((cfg2.win 0).blk t).view.emb (ix2 a k)) = V c main_v47 (ix2 r k)
  refine congrArg (V c main_v47) (funext fun d => Fin.ext ?_)
  match d with
  | ⟨0, _⟩ => show win2_0.index t (0 : Fin 2) * 5000 + 1 * a.val = r.val; omega
  | ⟨1, _⟩ => show win2_0.index t (1 : Fin 2) * 4 + 1 * k.val = k.val; omega

/-- The weights' block at any point is the weights' array. -/
theorem weights_block_apply (t : Fin cfg2.N) (k : Fin 4) (b : Fin 4) :
    (iblk2 (F := Ideal) V c 1 t : Vec Ideal S4x4 .f32) (ix2 k b) = (V c main_arg4 : Vec Ideal S4x4 .f32) (ix2 k b) := by
  obtain ⟨-, -, e0, e1, -⟩ := index_facts t
  unfold iblk2
  rw [View.read_apply]
  show V c main_arg4 (((cfg2.win 1).blk t).view.emb (ix2 k b)) = V c main_arg4 (ix2 k b)
  refine congrArg (V c main_arg4) (funext fun d => Fin.ext ?_)
  match d with
  | ⟨0, _⟩ => show win2_1.index t (0 : Fin 2) * 4 + 1 * k.val = k.val; omega
  | ⟨1, _⟩ => show win2_1.index t (1 : Fin 2) * 4 + 1 * b.val = b.val; omega

/-- What point `t` writes back is block `t` of the product of the two arrays as the region finds them. -/
theorem flushed_eq (t : Fin cfg2.N) :
    (dat2 (F := Ideal) V c).flushed 2 t = ((cfg2.win 2).blk t).view.read (Elt Ideal)
      (Host.dotGeneral (F := Ideal) (φ₁ := .f32) (φ₂ := .f32) (DotDims.plain 500000 4 4) none (V c main_v47) (V c main_arg4)) := by
  show (cfg2.win 2).cut (grid2.coords t) ((dat2 V c).after 2 t) = _
  rw [after2_2]
  unfold out2_2
  rw [View.canon_unit_zero origin_zero]
  simp only [View.ld_unit_zero (S := S5000x4) origin_zero, View.ld_unit_zero (S := S4x4) origin_zero]
  obtain ⟨-, -, -, -, e0, e1⟩ := index_facts t
  have hN : cfg2.N = 100 := N_2
  funext j
  obtain ⟨a, b, rfl⟩ : ∃ (a : Fin 5000) (b : Fin 4), j = ix2 a b := ⟨j 0, j 1, eq_ix2 j⟩
  have ht : t.val < 100 := hN ▸ t.isLt
  obtain ⟨r, hr⟩ : ∃ r : Fin 500000, r.val = t.val * 5000 + a.val := ⟨⟨t.val * 5000 + a.val, by have := a.isLt; omega⟩, rfl⟩
  have hemb : ((cfg2.win 2).blk t).view.emb (ix2 a b) = ix2 r b := by
    funext d; apply Fin.ext
    match d with
    | ⟨0, _⟩ => show win2_2.index t (0 : Fin 2) * 5000 + 1 * a.val = r.val; omega
    | ⟨1, _⟩ => show win2_2.index t (1 : Fin 2) * 4 + 1 * b.val = b.val; omega
  show k2_pay1 (F := Ideal) (iblk2 V c 0 t) (iblk2 V c 1 t) (ix2 a b)
    = Host.dotGeneral (F := Ideal) (φ₁ := .f32) (φ₂ := .f32) (DotDims.plain 500000 4 4) none (V c main_v47) (V c main_arg4) (((cfg2.win 2).blk t).view.emb (ix2 a b))
  rw [hemb]
  refine (block_product_apply _ _ a b).trans ((Finset.sum_congr rfl fun k _ => ?_).trans (Cert.MatOps.dotGeneral_plain_apply none _ _ r b).symm)
  rw [rows_block_apply V c t a k r hr, weights_block_apply V c t k b]

/-- An index of the result array is in point `t`'s block iff each coordinate is in the block's range on its axis. -/
theorem mem_block (t : Fin cfg2.N) (i : S500000x4.Idx) :
    i ∈ ((cfg2.win 2).blk t).view.set ↔ ∀ a : Fin 2, win2_2.index t a * S5000x4.size a ≤ (i a).val ∧ (i a).val < win2_2.index t a * S5000x4.size a + S5000x4.size a := by
  show i ∈ ((View.whole main_v48).slice (win2_2.rect t)).set ↔ _
  rw [View.set_slice_whole, Rect.mem_set_unit]
  exact Iff.rfl

/-- Every row `r` of the result is in the block of point `r / 5000`. -/
theorem covered (i : S500000x4.Idx) : ∃ t : Fin cfg2.N, (cfg2.win 2).flush t = true ∧ i ∈ ((cfg2.win 2).blk t).view.set := by
  have hN : cfg2.N = 100 := N_2
  have hi0 : (i 0).val < 500000 := idx2_lt0 i
  have hi1 : (i 1).val < 4 := idx2_lt1 i
  obtain ⟨t, ht⟩ : ∃ t : Fin cfg2.N, t.val = (i 0).val / 5000 := ⟨⟨(i 0).val / 5000, by rw [hN]; omega⟩, rfl⟩
  obtain ⟨-, -, -, -, e0, e1⟩ := index_facts t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 4 ≤ (i 1).val ∧ (i 1).val < win2_2.index t (1 : Fin 2) * 4 + 4; omega

/-- After the region the result array is the product of the rows' array and the weights' array as the region found
    them: the contraction of axis 1 of the rows with axis 0 of the weights. -/
theorem array_eq :
    (dat2 (F := Ideal) V c).arrAt 2 cfg2.N
      = Host.dotGeneral (F := Ideal) (φ₁ := .f32) (φ₂ := .f32) (DotDims.plain 500000 4 4) none (V c main_v47) (V c main_arg4) :=
  (dat2 (F := Ideal) V c).arrAt_eq_of_cover 2 _ (fun t _ => flushed_eq V c t) covered

end

end Cert.KernelIdeal.MatmulRegion2
-- ==== Proof.MatmulRegion4.lean ====
/-
  The third layer's product, region by region: the result array of the third matrix-product region is the product
  of the rows' array [500000, 4] (the second layer's activations) and the weights' array [4, 2] as the region finds them.

  The region walks 100 grid points; point `t` takes rows `5000 t … 5000 t + 4999` of the rows' array and the whole
  weights, and writes the block's product (operands cast to a narrower format, which changes nothing at the ideal
  values; a zero accumulator) to the same rows of the result. At an index `(r, b)` both sides are
  `∑ k, x(r, k) · w(k, b)`: the block's product at `(a, b)` reads row `5000 t + a`, and row `r` is in the block of point
  `r / 5000`, so the blocks cover the result.
-/
import proofs.«140898_j70093866270993_1_alg».proof.Proof.Gen.KernelIdeal.Frame
import proofs.«140898_j70093866270993_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.MatmulRegion4

open Cert.KernelIdeal Cert.KernelIdeal.Gen Idealize.ShloMosaic Idealize.ShloMosaic.TcCoe Idealize.ShloMosaic.ValueIdx Idealize.SL.Sem
open Idealize.ShloMosaic.Pipeline (Dat Cfg Window)

/-- The origin of a rank-2 block, as the constant-zero offset. -/
theorem origin_zero : (![0, 0] : Fin 2 → Nat) = fun _ => 0 := funext fun a => by fin_cases a <;> rfl

/-- The body's result at row `a`, column `b` of a block: the sum over the 4 hidden units of the row's entry times the
    weight's. The reshape of the rows' block to its own shape is the identity, the casts of both operands to the
    narrower format change nothing at the ideal values, and the accumulator starts at zero. -/
theorem block_product_apply (x : Vec Ideal S5000x4 .f32) (w : Vec Ideal S4x2 .f32) (a : Fin 5000) (b : Fin 2) :
    k4_pay1 (F := Ideal) x w (ix2 a b) = ∑ k : Fin 4, x (ix2 a k) * w (ix2 k b) := by
  unfold k4_pay1
  show matmul (F := Ideal) (DotDims.plain 5000 4 2) none (truncf .bf16 (shapeCast S5000x4 x shapeCasts_S5000x4_S5000x4) bitsLt_bf16_f32) (truncf .bf16 w bitsLt_bf16_f32) (constant ⟨2, ![5000, 2]⟩ .f32 0x00000000#32) (ix2 a b) = _
  rw [shapeCast_self, Cert.MatOps.matmul_plain_zero_apply]
  rfl

/-- Where the blocks sit: at grid point `t` the row blocks (the operand's and the result's) are block `t` along the
    rows and the only block along the columns; the weights' block is the whole array. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b)) (c : Dev nD)

/-- Entry `(a, k)` of the rows' block at point `t` is entry `(5000 t + a, k)` of the rows' array. -/
theorem rows_block_apply (t : Fin cfg4.N) (a : Fin 5000) (k : Fin 4) (r : Fin 500000) (hr : r.val = t.val * 5000 + a.val) :
    (iblk4 (F := Ideal) V c 0 t : Vec Ideal S5000x4 .f32) (ix2 a k) = (V c main_v63 : Vec Ideal S500000x4 .f32) (ix2 r k) := by
  obtain ⟨e0, e1, -⟩ := index_facts t
  unfold iblk4
  rw [View.read_apply]
  show V c main_v63 (((cfg4.win 0).blk t).view.emb (ix2 a k)) = V c main_v63 (ix2 r k)
  refine congrArg (V c main_v63) (funext fun d => Fin.ext ?_)
  match d with
  | ⟨0, _⟩ => show win4_0.index t (0 : Fin 2) * 5000 + 1 * a.val = r.val; omega
  | ⟨1, _⟩ => show win4_0.index t (1 : Fin 2) * 4 + 1 * k.val = k.val; omega

/-- The weights' block at any point is the weights' array. -/
theorem weights_block_apply (t : Fin cfg4.N) (k : Fin 4) (b : Fin 2) :
    (iblk4 (F := Ideal) V c 1 t : Vec Ideal S4x2 .f32) (ix2 k b) = (V c main_arg6 : Vec Ideal S4x2 .f32) (ix2 k b) := by
  obtain ⟨-, -, e0, e1, -⟩ := index_facts t
  unfold iblk4
  rw [View.read_apply]
  show V c main_arg6 (((cfg4.win 1).blk t).view.emb (ix2 k b)) = V c main_arg6 (ix2 k b)
  refine congrArg (V c main_arg6) (funext fun d => Fin.ext ?_)
  match d with
  | ⟨0, _⟩ => show win4_1.index t (0 : Fin 2) * 4 + 1 * k.val = k.val; omega
  | ⟨1, _⟩ => show win4_1.index t (1 : Fin 2) * 2 + 1 * b.val = b.val; omega

/-- What point `t` writes back is block `t` of the product of the two arrays as the region finds them. -/
theorem flushed_eq (t : Fin cfg4.N) :
    (dat4 (F := Ideal) V c).flushed 2 t = ((cfg4.win 2).blk t).view.read (Elt Ideal)
      (Host.dotGeneral (F := Ideal) (φ₁ := .f32) (φ₂ := .f32) (DotDims.plain 500000 4 2) none (V c main_v63) (V c main_arg6)) := by
  show (cfg4.win 2).cut (grid4.coords t) ((dat4 V c).after 2 t) = _
  rw [after4_2]
  unfold out4_2
  rw [View.canon_unit_zero origin_zero]
  simp only [View.ld_unit_zero (S := S5000x4) origin_zero, View.ld_unit_zero (S := S4x2) origin_zero]
  obtain ⟨-, -, -, -, e0, e1⟩ := index_facts t
  have hN : cfg4.N = 100 := N_4
  funext j
  obtain ⟨a, b, rfl⟩ : ∃ (a : Fin 5000) (b : Fin 2), j = ix2 a b := ⟨j 0, j 1, eq_ix2 j⟩
  have ht : t.val < 100 := hN ▸ t.isLt
  obtain ⟨r, hr⟩ : ∃ r : Fin 500000, r.val = t.val * 5000 + a.val := ⟨⟨t.val * 5000 + a.val, by have := a.isLt; omega⟩, rfl⟩
  have hemb : ((cfg4.win 2).blk t).view.emb (ix2 a b) = ix2 r b := by
    funext d; apply Fin.ext
    match d with
    | ⟨0, _⟩ => show win4_2.index t (0 : Fin 2) * 5000 + 1 * a.val = r.val; omega
    | ⟨1, _⟩ => show win4_2.index t (1 : Fin 2) * 2 + 1 * b.val = b.val; omega
  show k4_pay1 (F := Ideal) (iblk4 V c 0 t) (iblk4 V c 1 t) (ix2 a b)
    = Host.dotGeneral (F := Ideal) (φ₁ := .f32) (φ₂ := .f32) (DotDims.plain 500000 4 2) none (V c main_v63) (V c main_arg6) (((cfg4.win 2).blk t).view.emb (ix2 a b))
  rw [hemb]
  refine (block_product_apply _ _ a b).trans ((Finset.sum_congr rfl fun k _ => ?_).trans (Cert.MatOps.dotGeneral_plain_apply none _ _ r b).symm)
  rw [rows_block_apply V c t a k r hr, weights_block_apply V c t k b]

/-- An index of the result array is in point `t`'s block iff each coordinate is in the block's range on its axis. -/
theorem mem_block (t : Fin cfg4.N) (i : S500000x2.Idx) :
    i ∈ ((cfg4.win 2).blk t).view.set ↔ ∀ a : Fin 2, win4_2.index t a * S5000x2.size a ≤ (i a).val ∧ (i a).val < win4_2.index t a * S5000x2.size a + S5000x2.size a := by
  show i ∈ ((View.whole main_v64).slice (win4_2.rect t)).set ↔ _
  rw [View.set_slice_whole, Rect.mem_set_unit]
  exact Iff.rfl

/-- Every row `r` of the result is in the block of point `r / 5000`. -/
theorem covered (i : S500000x2.Idx) : ∃ t : Fin cfg4.N, (cfg4.win 2).flush t = true ∧ i ∈ ((cfg4.win 2).blk t).view.set := by
  have hN : cfg4.N = 100 := N_4
  have hi0 : (i 0).val < 500000 := idx2_lt0 i
  have hi1 : (i 1).val < 2 := idx2_lt1 i
  obtain ⟨t, ht⟩ : ∃ t : Fin cfg4.N, t.val = (i 0).val / 5000 := ⟨⟨(i 0).val / 5000, by rw [hN]; omega⟩, rfl⟩
  obtain ⟨-, -, -, -, e0, e1⟩ := index_facts t
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 2 ≤ (i 1).val ∧ (i 1).val < win4_2.index t (1 : Fin 2) * 2 + 2; omega

/-- After the region the result array is the product of the rows' array and the weights' array as the region found
    them: the contraction of axis 1 of the rows with axis 0 of the weights. -/
theorem array_eq :
    (dat4 (F := Ideal) V c).arrAt 2 cfg4.N
      = Host.dotGeneral (F := Ideal) (φ₁ := .f32) (φ₂ := .f32) (DotDims.plain 500000 4 2) none (V c main_v63) (V c main_arg6) :=
  (dat4 (F := Ideal) V c).arrAt_eq_of_cover 2 _ (fun t _ => flushed_eq V c t) covered

end

end Cert.KernelIdeal.MatmulRegion4
-- ==== Proof.BiasTanhRegion1.lean ====
import proofs.«140898_j70093866270993_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  Bias and hyperbolic tangent, block by block, is bias and hyperbolic tangent of the whole array.

  The region walks a [500000, 4] array in 100 blocks of 5000 rows. On each block it adds the one bias row to every
  row of the block and applies tanh entry by entry. Entry (a, j) of block t is entry (5000 t + a, j) of the array,
  and the bias row is the same at every block, so the entry written at row r = 5000 t + a, column j is
  tanh (x (r, j) + bias (0, j)): the entry at (r, j) of tanh of (the array plus the bias row repeated down the rows).
  The 100 blocks cover every row (row r lies in block r / 5000), so the output array is that whole-array term.
-/

set_option maxRecDepth 16384

noncomputable section

namespace Cert.KernelIdeal.BiasTanhRegion1

open Cert.KernelIdeal Cert.KernelIdeal.Gen Idealize.ShloMosaic Idealize.ShloMosaic.TcCoe Idealize.ShloMosaic.ValueIdx Idealize.SL.Sem
open Idealize.ShloMosaic.Pipeline (Dat Cfg Window)

/-- Offsets written as a two-entry vector of zeros are the zero offsets. -/
theorem zero_offsets : (![0, 0] : Fin 2 → Nat) = fun _ => 0 := funext fun a => by fin_cases a <;> rfl

/-- Entry (a, j) of a block's result: tanh of the block's entry plus the bias row's entry in column j. -/
theorem block_entry (x : Vec Ideal S5000x4 .f32) (bias : Vec Ideal S1x4 .f32) (a : Fin 5000) (j : Fin 4) :
    k1_pay1 (F := Ideal) x bias (ix2 a j) = Ideal.tanh (x (ix2 a j) + bias (ix2 (0 : Fin 1) j)) := by
  unfold k1_pay1
  show Ideal.tanh (shapeCast S5000x4 x shapeCasts_S5000x4_S5000x4 (ix2 a j)
      + broadcastTo S5000x4 (shapeCast S1x4 bias shapeCasts_S1x4_S1x4) broadcasts_S1x4_S5000x4 (ix2 a j)) = _
  rw [shapeCast_self, shapeCast_self, broadcastTo_1b_ab_apply]

/-- Entry (r, j) of the whole-array term: tanh of the array's entry plus the bias row's entry in column j. -/
theorem array_entry (X : FVec Ideal S500000x4 .f32) (bias : FVec Ideal S1x4 .f32)
    (hb : (⟨2, ![1, 4]⟩ : Shape).BroadcastsInDim ⟨2, ![500000, 4]⟩ ![0, 1]) (r : Fin 500000) (j : Fin 4) :
    Host.tanh (F := Ideal) (addf X (broadcastInDim ⟨2, ![500000, 4]⟩ ![0, 1] hb bias)) (ix2 r j)
      = Ideal.tanh (X (ix2 r j) + bias (ix2 (0 : Fin 1) j)) := by
  show Ideal.tanh (X (ix2 r j) + broadcastInDim ⟨2, ![500000, 4]⟩ ![0, 1] hb bias (ix2 r j)) = _
  rw [broadcastInDim_apply ![0, 1] hb bias (ix2 r j) (ix2 (0 : Fin 1) j) (fun ax => by
    match ax with
    | ⟨0, _⟩ => rfl
    | ⟨1, _⟩ =>
      show j.val = if 4 = 1 then 0 else j.val
      rfl)]

/-- A block's result agrees with the whole-array term wherever the block's entry is the array's: entry y of the
    block against entry i of the array in the same column, the bias row read whole. -/
theorem block_eq_array_at (X : FVec Ideal S500000x4 .f32) (bias : FVec Ideal S1x4 .f32)
    (hb : (⟨2, ![1, 4]⟩ : Shape).BroadcastsInDim ⟨2, ![500000, 4]⟩ ![0, 1])
    (x : Vec Ideal S5000x4 .f32) (b : Vec Ideal S1x4 .f32) (y : S5000x4.Idx) (i : S500000x4.Idx)
    (hcol : (i 1).val = (y 1).val) (hx : x y = X i)
    (hbias : ∀ j : Fin 4, b (ix2 (0 : Fin 1) j) = bias (ix2 (0 : Fin 1) j)) :
    k1_pay1 (F := Ideal) x b y
      = Host.tanh (F := Ideal) (addf X (broadcastInDim ⟨2, ![500000, 4]⟩ ![0, 1] hb bias)) i := by
  obtain ⟨a, j, rfl⟩ : ∃ (a : Fin 5000) (j : Fin 4), y = ix2 a j := ⟨y 0, y 1, eq_ix2 y⟩
  obtain ⟨r, j', rfl⟩ : ∃ (r : Fin 500000) (j' : Fin 4), i = ix2 r j' := ⟨i 0, i 1, eq_ix2 i⟩
  obtain rfl : j' = j := Fin.ext hcol
  rw [block_entry, array_entry, hx, hbias]

/-- The index maps over the grid: at point t the row-blocked windows sit at block (t, 0), the bias window at (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of the whole-array term. -/
theorem written_block (c : Dev nD) (hb : (⟨2, ![1, 4]⟩ : Shape).BroadcastsInDim ⟨2, ![500000, 4]⟩ ![0, 1]) (t : Fin cfg1.N) :
    (dat1 (F := Ideal) V c).flushed 2 t = ((cfg1.win 2).blk t).view.read (Elt Ideal)
      (Host.tanh (F := Ideal) (s := S500000x4) (φ := .f32) (addf (V c main_v45) (broadcastInDim ⟨2, ![500000, 4]⟩ ![0, 1] hb (V c main_v46)))) := by
  show (cfg1.win 2).cut (grid1.coords t) ((dat1 (F := Ideal) V c).after 2 t) = _
  rw [after1_2]
  unfold out1_2
  rw [View.canon_unit_zero zero_offsets]
  simp only [View.ld_unit_zero (S := S5000x4) zero_offsets, View.ld_unit_zero (S := S1x4) zero_offsets]
  obtain ⟨e0, e1, e2, e3, e4, e5⟩ := block_indices t
  funext y
  refine block_eq_array_at (V c main_v45) (V c main_v46) hb (iblk1 V c 0 t) (iblk1 V c 1 t) y
    (((cfg1.win 2).blk t).view.emb y) ?_ ?_ ?_
  · show win1_2.index t (1 : Fin 2) * 4 + 1 * (y 1).val = (y 1).val
    omega
  · show V c main_v45 (((cfg1.win 0).blk t).view.emb y) = V c main_v45 (((cfg1.win 2).blk t).view.emb y)
    refine congrArg (V c main_v45) (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 4 + 1 * (y 1).val = win1_2.index t (1 : Fin 2) * 4 + 1 * (y 1).val; omega
  · intro j
    show V c main_v46 (((cfg1.win 1).blk t).view.emb (ix2 (0 : Fin 1) j)) = V c main_v46 (ix2 (0 : Fin 1) j)
    refine congrArg (V c main_v46) (funext fun a => Fin.ext ?_)
    match a with
    | ⟨0, _⟩ => show win1_1.index t (0 : Fin 2) * 1 + 1 * 0 = 0; omega
    | ⟨1, _⟩ => show win1_1.index t (1 : Fin 2) * 4 + 1 * j.val = j.val; omega

/-- An entry of the array lies in point t's block iff each of its coordinates lies in the block's range on its axis. -/
theorem mem_block (t : Fin cfg1.N) (i : S500000x4.Idx) :
    i ∈ ((cfg1.win 2).blk t).view.set ↔ ∀ a : Fin 2, win1_2.index t a * S5000x4.size a ≤ (i a).val ∧ (i a).val < win1_2.index t a * S5000x4.size a + S5000x4.size a := by
  show i ∈ ((View.whole main_v47).slice (win1_2.rect t)).set ↔ _
  rw [View.set_slice_whole, Rect.mem_set_unit]
  exact Iff.rfl

/-- Every entry of the array lies in a block that is written back: row r lies in block r / 5000. -/
theorem rows_covered (i : S500000x4.Idx) :
    ∃ t : Fin cfg1.N, (cfg1.win 2).flush t = true ∧ i ∈ ((cfg1.win 2).blk t).view.set := by
  have hi0 : (i 0).val < 500000 := (i 0).isLt
  have hi1 : (i 1).val < 4 := (i 1).isLt
  have hN : cfg1.N = 100 := N_1
  have hlt : (i 0).val / 5000 < cfg1.N := by rw [hN]; omega
  obtain ⟨-, -, -, -, e4, e5⟩ := block_indices ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_block]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 4 ≤ (i 1).val
      ∧ (i 1).val < win1_2.index ⟨(i 0).val / 5000, hlt⟩ (1 : Fin 2) * 4 + 4
    omega

/-- After the region the output array is tanh of (the input array plus the bias row repeated down the rows). -/
theorem array_eq (c : Dev nD) (hb : (⟨2, ![1, 4]⟩ : Shape).BroadcastsInDim ⟨2, ![500000, 4]⟩ ![0, 1]) :
    (dat1 (F := Ideal) V c).arrAt 2 cfg1.N
      = Host.tanh (F := Ideal) (s := S500000x4) (φ := .f32) (addf (V c main_v45) (broadcastInDim ⟨2, ![500000, 4]⟩ ![0, 1] hb (V c main_v46))) :=
  (dat1 (F := Ideal) V c).arrAt_eq_of_cover 2 _ (fun t _ => written_block V c hb t) rows_covered

end

end Cert.KernelIdeal.BiasTanhRegion1

end
-- ==== Proof.BiasTanhRegion3.lean ====
import proofs.«140898_j70093866270993_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  Bias and hyperbolic tangent, block by block, is bias and hyperbolic tangent of the whole array.

  The region walks a [500000, 4] array in 100 blocks of 5000 rows. On each block it adds the one bias row to every
  row of the block and applies tanh entry by entry. Entry (a, j) of block t is entry (5000 t + a, j) of the array,
  and the bias row is the same at every block, so the entry written at row r = 5000 t + a, column j is
  tanh (x (r, j) + bias (0, j)): the entry at (r, j) of tanh of (the array plus the bias row repeated down the rows).
  The 100 blocks cover every row (row r lies in block r / 5000), so the output array is that whole-array term.
-/

set_option maxRecDepth 16384

noncomputable section

namespace Cert.KernelIdeal.BiasTanhRegion3

open Cert.KernelIdeal Cert.KernelIdeal.Gen Idealize.ShloMosaic Idealize.ShloMosaic.TcCoe Idealize.ShloMosaic.ValueIdx Idealize.SL.Sem
open Idealize.ShloMosaic.Pipeline (Dat Cfg Window)

/-- Offsets written as a two-entry vector of zeros are the zero offsets. -/
theorem zero_offsets : (![0, 0] : Fin 2 → Nat) = fun _ => 0 := funext fun a => by fin_cases a <;> rfl

/-- Entry (a, j) of a block's result: tanh of the block's entry plus the bias row's entry in column j. -/
theorem block_entry (x : Vec Ideal S5000x4 .f32) (bias : Vec Ideal S1x4 .f32) (a : Fin 5000) (j : Fin 4) :
    k3_pay1 (F := Ideal) x bias (ix2 a j) = Ideal.tanh (x (ix2 a j) + bias (ix2 (0 : Fin 1) j)) := by
  unfold k3_pay1
  show Ideal.tanh (shapeCast S5000x4 x shapeCasts_S5000x4_S5000x4 (ix2 a j)
      + broadcastTo S5000x4 (shapeCast S1x4 bias shapeCasts_S1x4_S1x4) broadcasts_S1x4_S5000x4 (ix2 a j)) = _
  rw [shapeCast_self, shapeCast_self, broadcastTo_1b_ab_apply]

/-- Entry (r, j) of the whole-array term: tanh of the array's entry plus the bias row's entry in column j. -/
theorem array_entry (X : FVec Ideal S500000x4 .f32) (bias : FVec Ideal S1x4 .f32)
    (hb : (⟨2, ![1, 4]⟩ : Shape).BroadcastsInDim ⟨2, ![500000, 4]⟩ ![0, 1]) (r : Fin 500000) (j : Fin 4) :
    Host.tanh (F := Ideal) (addf X (broadcastInDim ⟨2, ![500000, 4]⟩ ![0, 1] hb bias)) (ix2 r j)
      = Ideal.tanh (X (ix2 r j) + bias (ix2 (0 : Fin 1) j)) := by
  show Ideal.tanh (X (ix2 r j) + broadcastInDim ⟨2, ![500000, 4]⟩ ![0, 1] hb bias (ix2 r j)) = _
  rw [broadcastInDim_apply ![0, 1] hb bias (ix2 r j) (ix2 (0 : Fin 1) j) (fun ax => by
    match ax with
    | ⟨0, _⟩ => rfl
    | ⟨1, _⟩ =>
      show j.val = if 4 = 1 then 0 else j.val
      rfl)]

/-- A block's result agrees with the whole-array term wherever the block's entry is the array's: entry y of the
    block against entry i of the array in the same column, the bias row read whole. -/
theorem block_eq_array_at (X : FVec Ideal S500000x4 .f32) (bias : FVec Ideal S1x4 .f32)
    (hb : (⟨2, ![1, 4]⟩ : Shape).BroadcastsInDim ⟨2, ![500000, 4]⟩ ![0, 1])
    (x : Vec Ideal S5000x4 .f32) (b : Vec Ideal S1x4 .f32) (y : S5000x4.Idx) (i : S500000x4.Idx)
    (hcol : (i 1).val = (y 1).val) (hx : x y = X i)
    (hbias : ∀ j : Fin 4, b (ix2 (0 : Fin 1) j) = bias (ix2 (0 : Fin 1) j)) :
    k3_pay1 (F := Ideal) x b y
      = Host.tanh (F := Ideal) (addf X (broadcastInDim ⟨2, ![500000, 4]⟩ ![0, 1] hb bias)) i := by
  obtain ⟨a, j, rfl⟩ : ∃ (a : Fin 5000) (j : Fin 4), y = ix2 a j := ⟨y 0, y 1, eq_ix2 y⟩
  obtain ⟨r, j', rfl⟩ : ∃ (r : Fin 500000) (j' : Fin 4), i = ix2 r j' := ⟨i 0, i 1, eq_ix2 i⟩
  obtain rfl : j' = j := Fin.ext hcol
  rw [block_entry, array_entry, hx, hbias]

/-- The index maps over the grid: at point t the row-blocked windows sit at block (t, 0), the bias window at (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point t writes back is block t of the whole-array term. -/
theorem written_block (c : Dev nD) (hb : (⟨2, ![1, 4]⟩ : Shape).BroadcastsInDim ⟨2, ![500000, 4]⟩ ![0, 1]) (t : Fin cfg3.N) :
    (dat3 (F := Ideal) V c).flushed 2 t = ((cfg3.win 2).blk t).view.read (Elt Ideal)
      (Host.tanh (F := Ideal) (s := S500000x4) (φ := .f32) (addf (V c main_v61) (broadcastInDim ⟨2, ![500000, 4]⟩ ![0, 1] hb (V c main_v62)))) := by
  show (cfg3.win 2).cut (grid3.coords t) ((dat3 (F := Ideal) V c).after 2 t) = _
  rw [after3_2]
  unfold out3_2
  rw [View.canon_unit_zero zero_offsets]
  simp only [View.ld_unit_zero (S := S5000x4) zero_offsets, View.ld_unit_zero (S := S1x4) zero_offsets]
  obtain ⟨e0, e1, e2, e3, e4, e5⟩ := block_indices t
  funext y
  refine block_eq_array_at (V c main_v61) (V c main_v62) hb (iblk3 V c 0 t) (iblk3 V c 1 t) y
    (((cfg3.win 2).blk t).view.emb y) ?_ ?_ ?_
  · show win3_2.index t (1 : Fin 2) * 4 + 1 * (y 1).val = (y 1).val
    omega
  · show V c main_v61 (((cfg3.win 0).blk t).view.emb y) = V c main_v61 (((cfg3.win 2).blk t).view.emb y)
    refine congrArg (V c main_v61) (funext fun a => Fin.ext ?_)
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 4 + 1 * (y 1).val = win3_2.index t (1 : Fin 2) * 4 + 1 * (y 1).val; omega
  · intro j
    show V c main_v62 (((cfg3.win 1).blk t).view.emb (ix2 (0 : Fin 1) j)) = V c main_v62 (ix2 (0 : Fin 1) j)
    refine congrArg (V c main_v62) (funext fun a => Fin.ext ?_)
    match a with
    | ⟨0, _⟩ => show win3_1.index t (0 : Fin 2) * 1 + 1 * 0 = 0; omega
    | ⟨1, _⟩ => show win3_1.index t (1 : Fin 2) * 4 + 1 * j.val = j.val; omega

/-- An entry of the array lies in point t's block iff each of its coordinates lies in the block's range on its axis. -/
theorem mem_block (t : Fin cfg3.N) (i : S500000x4.Idx) :
    i ∈ ((cfg3.win 2).blk t).view.set ↔ ∀ a : Fin 2, win3_2.index t a * S5000x4.size a ≤ (i a).val ∧ (i a).val < win3_2.index t a * S5000x4.size a + S5000x4.size a := by
  show i ∈ ((View.whole main_v63).slice (win3_2.rect t)).set ↔ _
  rw [View.set_slice_whole, Rect.mem_set_unit]
  exact Iff.rfl

/-- Every entry of the array lies in a block that is written back: row r lies in block r / 5000. -/
theorem rows_covered (i : S500000x4.Idx) :
    ∃ t : Fin cfg3.N, (cfg3.win 2).flush t = true ∧ i ∈ ((cfg3.win 2).blk t).view.set := by
  have hi0 : (i 0).val < 500000 := (i 0).isLt
  have hi1 : (i 1).val < 4 := (i 1).isLt
  have hN : cfg3.N = 100 := N_3
  have hlt : (i 0).val / 5000 < cfg3.N := by rw [hN]; omega
  obtain ⟨-, -, -, -, e4, e5⟩ := block_indices ⟨(i 0).val / 5000, hlt⟩
  have e4' : win3_2.index ⟨(i 0).val / 5000, hlt⟩ (0 : Fin 2) = (i 0).val / 5000 := e4
  refine ⟨⟨(i 0).val / 5000, hlt⟩, flush3_2 _, ?_⟩
  rw [mem_block]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    omega
  | ⟨1, _⟩ =>
    show win3_2.index ⟨(i 0).val / 5000, hlt⟩ (1 : Fin 2) * 4 ≤ (i 1).val
      ∧ (i 1).val < win3_2.index ⟨(i 0).val / 5000, hlt⟩ (1 : Fin 2) * 4 + 4
    omega

/-- After the region the output array is tanh of (the input array plus the bias row repeated down the rows). -/
theorem array_eq (c : Dev nD) (hb : (⟨2, ![1, 4]⟩ : Shape).BroadcastsInDim ⟨2, ![500000, 4]⟩ ![0, 1]) :
    (dat3 (F := Ideal) V c).arrAt 2 cfg3.N
      = Host.tanh (F := Ideal) (s := S500000x4) (φ := .f32) (addf (V c main_v61) (broadcastInDim ⟨2, ![500000, 4]⟩ ![0, 1] hb (V c main_v62))) :=
  (dat3 (F := Ideal) V c).arrAt_eq_of_cover 2 _ (fun t _ => written_block V c hb t) rows_covered

end

end Cert.KernelIdeal.BiasTanhRegion3

end
-- ==== Proof.BiasTanhRegion5.lean ====
import proofs.«140898_j70093866270993_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  Bias and hyperbolic tangent, block by block, is bias and hyperbolic tangent of the whole array.

  The region walks a [500000, 2] array in 100 blocks of 5000 rows. On each block it adds the one bias row to every
  row of the block and applies tanh entry by entry. Entry (a, j) of block t is entry (5000 t + a, j) of the array,
  and the bias row is the same at every block, so the entry written at row r = 5000 t + a, column j is
  tanh (x (r, j) + bias (0, j)): the entry at (r, j) of tanh of (the array plus the bias row repeated down the rows).
  The 100 blocks cover every row (row r lies in block r / 5000), so the output array is that whole-array term.
-/

set_option maxRecDepth 16384

noncomputable section

namespace Cert.KernelIdeal.BiasTanhRegion5

open Cert.KernelIdeal Cert.KernelIdeal.Gen Idealize.ShloMosaic Idealize.ShloMosaic.TcCoe Idealize.ShloMosaic.ValueIdx Idealize.SL.Sem
open Idealize.ShloMosaic.Pipeline (Dat Cfg Window)

/-- Offsets written as a two-entry vector of zeros are the zero offsets. -/
theorem zero_offsets : (![0, 0] : Fin 2 → Nat) = fun _ => 0 := funext fun a => by fin_cases a <;> rfl

/-- Entry (a, j) of a block's result: tanh of the block's entry plus the bias row's entry in column j. -/
theorem block_entry (x : Vec Ideal S5000x2 .f32) (bias : Vec Ideal S1x2 .f32) (a : Fin 5000) (j : Fin 2) :
    k5_pay1 (F := Ideal) x bias (ix2 a j) = Ideal.tanh (x (ix2 a j) + bias (ix2 (0 : Fin 1) j)) := by
  unfold k5_pay1
  show Ideal.tanh (shapeCast S5000x2 x shapeCasts_S5000x2_S5000x2 (ix2 a j)
      + broadcastTo S5000x2 (shapeCast S1x2 bias shapeCasts_S1x2_S1x2) broadcasts_S1x2_S5000x2 (ix2 a j)) = _
  rw [shapeCast_self, shapeCast_self, broadcastTo_1b_ab_apply]

/-- Entry (r, j) of the whole-array term: tanh of the array's entry plus the bias row's entry in column j. -/
theorem array_entry (X : FVec Ideal S500000x2 .f32) (bias : FVec Ideal S1x2 .f32)
    (hb : (⟨2, ![1, 2]⟩ : Shape).BroadcastsInDim ⟨2, ![500000, 2]⟩ ![0, 1]) (r : Fin 500000) (j : Fin 2) :
    Host.tanh (F := Ideal) (addf X (broadcastInDim ⟨2, ![500000, 2]⟩ ![0, 1] hb bias)) (ix2 r j)
      = Ideal.tanh (X (ix2 r j) + bias (ix2 (0 : Fin 1) j)) := by
  show Ideal.tanh (X (ix2 r j) + broadcastInDim ⟨2, ![500000, 2]⟩ ![0, 1] hb bias (ix2 r j)) = _
  rw [broadcastInDim_apply ![0, 1] hb bias (ix2 r j) (ix2 (0 : Fin 1) j) (fun ax => by
    match ax with
    | ⟨0, _⟩ => rfl
    | ⟨1, _⟩ =>
      show j.val = if 2 = 1 then 0 else j.val
      rfl)]

/-- A block's result agrees with the whole-array term wherever the block's entry is the array's: entry y of the
    block against entry i of the array in the same column, the bias row read whole. -/
theorem block_eq_array_at (X : FVec Ideal S500000x2 .f32) (bias : FVec Ideal S1x2 .f32)
    (hb : (⟨2, ![1, 2]⟩ : Shape).BroadcastsInDim ⟨2, ![500000, 2]⟩ ![0, 1])
    (x : Vec Ideal S5000x2 .f32) (b : Vec Ideal S1x2 .f32) (y : S5000x2.Idx) (i : S500000x2.Idx)
    (hcol : (i 1).val = (y 1).val) (hx : x y = X i)
    (hbias : ∀ j : Fin 2, b (ix2 (0 : Fin 1) j) = bias (ix2 (0 : Fin 1) j)) :
    k5_pay1 (F := Ideal) x b y
      = Host.tanh (F := Ideal) (addf X (broadcastInDim ⟨2, ![500000, 2]⟩ ![0, 1] hb bias)) i := by
  obtain ⟨a, j, rfl⟩ : ∃ (a : Fin 5000) (j : Fin 2), y = ix2 a j := ⟨y 0, y 1, eq_ix2 y⟩
  obtain ⟨r, j', rfl⟩ : ∃ (r : Fin 500000) (j' : Fin 2), i = ix2 r j' := ⟨i 0, i 1, eq_ix2 i⟩
  obtain rfl : j' = j := Fin.ext hcol
  rw [block_entry, array_entry, hx, hbias]

/-- The index maps over the grid: at point t the row-blocked windows sit at block (t, 0), the bias window at (0, 0). -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- What point t writes back is block t of the whole-array term. -/
theorem written_block (c : Dev nD) (hb : (⟨2, ![1, 2]⟩ : Shape).BroadcastsInDim ⟨2, ![500000, 2]⟩ ![0, 1]) (t : Fin cfg5.N) :
    (dat5 (F := Ideal) V c).flushed 2 t = ((cfg5.win 2).blk t).view.read (Elt Ideal)
      (Host.tanh (F := Ideal) (s := S500000x2) (φ := .f32) (addf (V c main_v77) (broadcastInDim ⟨2, ![500000, 2]⟩ ![0, 1] hb (V c main_v78)))) := by
  show (cfg5.win 2).cut (grid5.coords t) ((dat5 (F := Ideal) V c).after 2 t) = _
  rw [after5_2]
  unfold out5_2
  rw [View.canon_unit_zero zero_offsets]
  simp only [View.ld_unit_zero (S := S5000x2) zero_offsets, View.ld_unit_zero (S := S1x2) zero_offsets]
  obtain ⟨e0, e1, e2, e3, e4, e5⟩ := block_indices t
  funext y
  refine block_eq_array_at (V c main_v77) (V c main_v78) hb (iblk5 V c 0 t) (iblk5 V c 1 t) y
    (((cfg5.win 2).blk t).view.emb y) ?_ ?_ ?_
  · show win5_2.index t (1 : Fin 2) * 2 + 1 * (y 1).val = (y 1).val
    omega
  · show V c main_v77 (((cfg5.win 0).blk t).view.emb y) = V c main_v77 (((cfg5.win 2).blk t).view.emb y)
    refine congrArg (V c main_v77) (funext fun a => Fin.ext ?_)
    match a with
    | ⟨0, _⟩ => show win5_0.index t (0 : Fin 2) * 5000 + 1 * (y 0).val = win5_2.index t (0 : Fin 2) * 5000 + 1 * (y 0).val; omega
    | ⟨1, _⟩ => show win5_0.index t (1 : Fin 2) * 2 + 1 * (y 1).val = win5_2.index t (1 : Fin 2) * 2 + 1 * (y 1).val; omega
  · intro j
    show V c main_v78 (((cfg5.win 1).blk t).view.emb (ix2 (0 : Fin 1) j)) = V c main_v78 (ix2 (0 : Fin 1) j)
    refine congrArg (V c main_v78) (funext fun a => Fin.ext ?_)
    match a with
    | ⟨0, _⟩ => show win5_1.index t (0 : Fin 2) * 1 + 1 * 0 = 0; omega
    | ⟨1, _⟩ => show win5_1.index t (1 : Fin 2) * 2 + 1 * j.val = j.val; omega

/-- An entry of the array lies in point t's block iff each of its coordinates lies in the block's range on its axis. -/
theorem mem_block (t : Fin cfg5.N) (i : S500000x2.Idx) :
    i ∈ ((cfg5.win 2).blk t).view.set ↔ ∀ a : Fin 2, win5_2.index t a * S5000x2.size a ≤ (i a).val ∧ (i a).val < win5_2.index t a * S5000x2.size a + S5000x2.size a := by
  show i ∈ ((View.whole main_v79).slice (win5_2.rect t)).set ↔ _
  rw [View.set_slice_whole, Rect.mem_set_unit]
  exact Iff.rfl

/-- Every entry of the array lies in a block that is written back: row r lies in block r / 5000. -/
theorem rows_covered (i : S500000x2.Idx) :
    ∃ t : Fin cfg5.N, (cfg5.win 2).flush t = true ∧ i ∈ ((cfg5.win 2).blk t).view.set := by
  have hi0 : (i 0).val < 500000 := (i 0).isLt
  have hi1 : (i 1).val < 2 := (i 1).isLt
  have hN : cfg5.N = 100 := N_5
  have hlt : (i 0).val / 5000 < cfg5.N := by rw [hN]; omega
  obtain ⟨-, -, -, -, e4, e5⟩ := block_indices ⟨(i 0).val / 5000, hlt⟩
  have e4' : win5_2.index ⟨(i 0).val / 5000, hlt⟩ (0 : Fin 2) = (i 0).val / 5000 := e4
  refine ⟨⟨(i 0).val / 5000, hlt⟩, flush5_2 _, ?_⟩
  rw [mem_block]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    omega
  | ⟨1, _⟩ =>
    show win5_2.index ⟨(i 0).val / 5000, hlt⟩ (1 : Fin 2) * 2 ≤ (i 1).val
      ∧ (i 1).val < win5_2.index ⟨(i 0).val / 5000, hlt⟩ (1 : Fin 2) * 2 + 2
    omega

/-- After the region the output array is tanh of (the input array plus the bias row repeated down the rows). -/
theorem array_eq (c : Dev nD) (hb : (⟨2, ![1, 2]⟩ : Shape).BroadcastsInDim ⟨2, ![500000, 2]⟩ ![0, 1]) :
    (dat5 (F := Ideal) V c).arrAt 2 cfg5.N
      = Host.tanh (F := Ideal) (s := S500000x2) (φ := .f32) (addf (V c main_v77) (broadcastInDim ⟨2, ![500000, 2]⟩ ![0, 1] hb (V c main_v78))) :=
  (dat5 (F := Ideal) V c).arrAt_eq_of_cover 2 _ (fun t _ => written_block V c hb t) rows_covered

end

end Cert.KernelIdeal.BiasTanhRegion5

end
-- ==== Proof.ClassifierRegion6.lean ====
/-
  The classifier layer, from blocks to the whole array.

  The last region of the network multiplies each row of the [500000, 2] array of node embeddings by the [2, 8]
  weights and adds the one [1, 8] bias row. It runs over 100 grid points; point t handles rows 5000 t ... 5000 t + 4999.
  At the ideal values, entry (r, j) of the result is  (sum over k < 2 of emb(r, k) * w(k, j)) + bias(0, j):
  the casts of the operands to a narrower format are the identity, and the product starts from a zero accumulator.
  The same formula reads entry (r, j) of the host's general dot plus the bias row broadcast down the rows.

  Steps: the body's arithmetic at one entry of one block; the whole-array function at one entry; the block indices of
  the four windows at every grid point; what a grid point writes back, as block t of the whole-array function (row a
  of block t is row 5000 t + a of the array, the weights and the bias row are read whole); every row r lies in the
  block of point r / 5000; hence the output array after the region is the whole-array function.
-/
import proofs.«140898_j70093866270993_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«140898_j70093866270993_1_alg».proof.Proof.LibMatmul

set_option maxRecDepth 16384

noncomputable section

namespace Cert.KernelIdeal.ClassifierRegion6

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- The whole-buffer rectangle's offsets are all zero. -/
theorem zero_offsets : (![0, 0] : Fin 2 → Nat) = fun _ => 0 := funext fun a => by fin_cases a <;> rfl

/-- The body's contraction has the dimension numbers of the plain product of a 5000 x 2 by a 2 x 8 matrix. -/
theorem dims_plain : dot_S5000x2_S2x8_S5000x8_1_0_0_1_n_n = DotDims.plain 5000 2 8 := rfl

/-- The bias row broadcast down the rows: entry (a, b) is entry (0, b) of the row. -/
theorem bias_rows_apply (x2 : Vec Ideal S1x8 .f32) (a : Fin 5000) (b : Fin 8) :
    broadcastTo S5000x8 x2 broadcasts_S1x8_S5000x8 (ix2 a b) = x2 (ix2 0 b) :=
  broadcastTo_apply x2 broadcasts_S1x8_S5000x8 (ix2 a b) (ix2 0 b) (fun ax => match ax with
    | ⟨0, _⟩ => rfl
    | ⟨1, _⟩ => rfl)

/-- The body's arithmetic at entry (a, b) of a block: row a of the block of embeddings against column b of the
    weights, plus entry b of the bias row. The casts of the operands to a narrower format change nothing at the
    ideal values, and the product starts from the zero accumulator. -/
theorem classifier_apply (x0 : Vec Ideal S5000x2 .f32) (x1 : Vec Ideal S2x8 .f32) (x2 : Vec Ideal S1x8 .f32)
    (a : Fin 5000) (b : Fin 8) :
    k6_pay1 (F := Ideal) x0 x1 x2 (ix2 a b) = (∑ k : Fin 2, x0 (ix2 a k) * x1 (ix2 k b)) + x2 (ix2 0 b) := by
  unfold k6_pay1
  rw [shapeCast_self, shapeCast_self]
  refine (addf_apply _ _ (ix2 a b)).trans ?_
  refine congrArg₂ (· + ·) ?_ (bias_rows_apply x2 a b)
  rw [dims_plain]
  exact Cert.MatOps.matmul_plain_zero_apply none _ _ a b

/-- The whole output array as one function of the three argument arrays: the general dot of the embedding rows with
    the weights, plus the one bias row broadcast down the rows. -/
abbrev logits (emb : FVec Ideal S500000x2 .f32) (w : FVec Ideal S2x8 .f32) (bias : FVec Ideal S1x8 .f32)
    (hb : (⟨2, ![1, 8]⟩ : Shape).BroadcastsInDim ⟨2, ![500000, 8]⟩ ![0, 1]) : FVec Ideal S500000x8 .f32 :=
  addf (Host.dotGeneral (F := Ideal) (DotDims.plain 500000 2 8) none emb w) (broadcastInDim ⟨2, ![500000, 8]⟩ ![0, 1] hb bias)

/-- Entry (r, b) of it: row r of the embeddings against column b of the weights, plus entry b of the bias row. -/
theorem logits_apply (emb : FVec Ideal S500000x2 .f32) (w : FVec Ideal S2x8 .f32) (bias : FVec Ideal S1x8 .f32)
    (hb : (⟨2, ![1, 8]⟩ : Shape).BroadcastsInDim ⟨2, ![500000, 8]⟩ ![0, 1]) (r : Fin 500000) (b : Fin 8) :
    logits emb w bias hb (ix2 r b) = (∑ k : Fin 2, emb (ix2 r k) * w (ix2 k b)) + bias (ix2 0 b) := by
  refine (addf_apply _ _ (ix2 r b)).trans ?_
  refine congrArg₂ (· + ·) (Cert.MatOps.dotGeneral_plain_apply none emb w r b) ?_
  exact broadcastInDim_apply ![0, 1] hb bias (ix2 r b) (ix2 0 b) (fun ax => match ax with
    | ⟨0, _⟩ => rfl
    | ⟨1, _⟩ => rfl)

/-- The windows' block indices at every grid point, decided over the grid: the embedding rows and the output rows
    are blocked along the rows, block t at point t; the weights and the bias row are one block each. -/
theorem index_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- One entry of one block: when the block of embeddings holds rows p * 5000 ... of the array, and the other two
    blocks are the whole weights and bias row, the body's entry j is the whole-array function at the entry of the
    array in row p * 5000 + (row of j) and the column of j. -/
theorem block_entry (x0 : Vec Ideal S5000x2 .f32) (x1 : Vec Ideal S2x8 .f32) (x2 : Vec Ideal S1x8 .f32)
    (emb : FVec Ideal S500000x2 .f32) (w : FVec Ideal S2x8 .f32) (bias : FVec Ideal S1x8 .f32)
    (hb : (⟨2, ![1, 8]⟩ : Shape).BroadcastsInDim ⟨2, ![500000, 8]⟩ ![0, 1]) (p : Nat)
    (j : S5000x8.Idx) (i : S500000x8.Idx)
    (h0 : ∀ (a : Fin 5000) (k : Fin 2) (r : Fin 500000), r.val = p * 5000 + a.val → x0 (ix2 a k) = emb (ix2 r k))
    (h1 : x1 = w) (h2 : x2 = bias)
    (hi0 : (i 0).val = p * 5000 + (j 0).val) (hi1 : (i 1).val = (j 1).val) :
    k6_pay1 (F := Ideal) x0 x1 x2 j = logits emb w bias hb i := by
  obtain ⟨a, b, rfl⟩ : ∃ (a : Fin 5000) (b : Fin 8), j = ix2 a b := ⟨j 0, j 1, eq_ix2 j⟩
  obtain ⟨r, b', rfl⟩ : ∃ (r : Fin 500000) (b' : Fin 8), i = ix2 r b' := ⟨i 0, i 1, eq_ix2 i⟩
  obtain rfl : b' = b := Fin.ext hi1
  subst h1 h2
  rw [classifier_apply, logits_apply]
  refine congrArg₂ (· + ·) (Finset.sum_congr rfl fun k _ => ?_) rfl
  rw [h0 a k r hi0]

/-- What grid point t writes back is block t of the whole-array function of the arrays as the region finds them. -/
theorem flushed_eq (V : (c : Dev nD) → (b : Ref sig .tc) → Buf (Elt Ideal) ((c : Thread nD τ).loc b)) (c : Dev nD)
    (hb : (⟨2, ![1, 8]⟩ : Shape).BroadcastsInDim ⟨2, ![500000, 8]⟩ ![0, 1]) (t : Fin cfg6.N) :
    (dat6 (F := Ideal) V c).flushed 3 t
      = ((cfg6.win 3).blk t).view.read (Elt Ideal) (logits (V c main_v79) (V c main_arg8) (V c main_v80) hb) := by
  show (cfg6.win 3).cut (grid6.coords t) ((dat6 V c).after 3 t) = _
  rw [after6_3]
  unfold out6_3
  rw [View.canon_unit_zero zero_offsets]
  simp only [View.ld_unit_zero (S := S5000x2) zero_offsets, View.ld_unit_zero (S := S2x8) zero_offsets,
    View.ld_unit_zero (S := S1x8) zero_offsets]
  obtain ⟨e00, e01, e10, e11, e20, e21, e30, e31⟩ := index_facts t
  funext j
  refine block_entry (iblk6 V c 0 t) (iblk6 V c 1 t) (iblk6 V c 2 t) (V c main_v79) (V c main_arg8) (V c main_v80) hb t.val
    ((win6 3).xinj (grid6.coords t) j) (((cfg6.win 3).blk t).view.emb j) ?_ ?_ ?_ ?_ ?_
  · intro a k r hr
    show V c main_v79 (((cfg6.win 0).blk t).view.emb (ix2 a k)) = V c main_v79 (ix2 r k)
    refine congrArg (V c main_v79) (funext fun ax => Fin.ext ?_)
    match ax with
    | ⟨0, _⟩ => show win6_0.index t (0 : Fin 2) * 5000 + 1 * a.val = r.val; omega
    | ⟨1, _⟩ => show win6_0.index t (1 : Fin 2) * 2 + 1 * k.val = k.val; omega
  · funext y
    show V c main_arg8 (((cfg6.win 1).blk t).view.emb y) = V c main_arg8 y
    refine congrArg (V c main_arg8) (funext fun ax => Fin.ext ?_)
    match ax with
    | ⟨0, _⟩ => show win6_1.index t (0 : Fin 2) * 2 + 1 * (y 0).val = (y 0).val; omega
    | ⟨1, _⟩ => show win6_1.index t (1 : Fin 2) * 8 + 1 * (y 1).val = (y 1).val; omega
  · funext y
    show V c main_v80 (((cfg6.win 2).blk t).view.emb y) = V c main_v80 y
    refine congrArg (V c main_v80) (funext fun ax => Fin.ext ?_)
    match ax with
    | ⟨0, _⟩ => show win6_2.index t (0 : Fin 2) * 1 + 1 * (y 0).val = (y 0).val; omega
    | ⟨1, _⟩ => show win6_2.index t (1 : Fin 2) * 8 + 1 * (y 1).val = (y 1).val; omega
  · show win6_3.index t (0 : Fin 2) * 5000 + 1 * (j 0).val = t.val * 5000 + (j 0).val; omega
  · show win6_3.index t (1 : Fin 2) * 8 + 1 * (j 1).val = (j 1).val; omega

/-- An entry of the output array is in grid point t's block iff each coordinate is in the block's range on its axis. -/
theorem mem_blk (t : Fin cfg6.N) (i : S500000x8.Idx) :
    i ∈ ((cfg6.win 3).blk t).view.set ↔ ∀ a : Fin 2, win6_3.index t a * S5000x8.size a ≤ (i a).val
      ∧ (i a).val < win6_3.index t a * S5000x8.size a + S5000x8.size a := by
  show i ∈ ((View.whole main_v81).slice (win6_3.rect t)).set ↔ _
  rw [View.set_slice_whole, Rect.mem_set_unit]
  exact Iff.rfl

/-- Row r of the output array is written back by grid point r / 5000. -/
theorem covered (i : S500000x8.Idx) :
    ∃ t : Fin cfg6.N, (cfg6.win 3).flush t = true ∧ i ∈ ((cfg6.win 3).blk t).view.set := by
  have hi0 : (i 0).val < 500000 := (i 0).isLt
  have hi1 : (i 1).val < 8 := (i 1).isLt
  have ht : (i 0).val / 5000 < cfg6.N := by
    show (i 0).val / 5000 < grid6.N
    rw [N_6]; omega
  obtain ⟨_, _, _, _, _, _, e30, e31⟩ := index_facts ⟨(i 0).val / 5000, ht⟩
  refine ⟨⟨(i 0).val / 5000, ht⟩, flush6_3 _, ?_⟩
  rw [mem_blk]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win6_3.index ⟨(i 0).val / 5000, ht⟩ (1 : Fin 2) * 8 ≤ (i 1).val
      ∧ (i 1).val < win6_3.index ⟨(i 0).val / 5000, ht⟩ (1 : Fin 2) * 8 + 8
    omega

/-- THE OUTPUT ARRAY AFTER THE REGION: the general dot of the embedding rows with the weights, plus the bias row
    broadcast down the rows, of the arrays as the region finds them. -/
theorem array_eq (V : (c : Dev nD) → (b : Ref sig .tc) → Buf (Elt Ideal) ((c : Thread nD τ).loc b)) (c : Dev nD)
    (hb : (⟨2, ![1, 8]⟩ : Shape).BroadcastsInDim ⟨2, ![500000, 8]⟩ ![0, 1]) :
    (dat6 (F := Ideal) V c).arrAt 3 cfg6.N
      = addf (Host.dotGeneral (F := Ideal) (φ₁ := .f32) (φ₂ := .f32) (DotDims.plain 500000 2 8) none (V c main_v79) (V c main_arg8))
          (broadcastInDim ⟨2, ![500000, 8]⟩ ![0, 1] hb (V c main_v80)) :=
  (dat6 (F := Ideal) V c).arrAt_eq_of_cover 3 (logits (V c main_v79) (V c main_arg8) (V c main_v80) hb)
    (fun t _ => flushed_eq V c hb t) covered

end Cert.KernelIdeal.ClassifierRegion6

end
-- ==== Proof.LibRowVector.lean ====
/-
  A vector laid as a row.

  A vector of length `a` becomes the one row of a `[1, a]` array in two ways: by reading the vector's entries in
  row-major order at the new shape, or by broadcasting it along the second axis. Both arrays have at `(0, i)` the
  vector's entry `i`, so they are the same array.
-/
import Idealize.ShloMosaic.Lib.Pipeline.Value
import Idealize.ShloMosaic.Lib.ValueIdx
import Idealize.ShloMosaic.Lib.ValueLayout

namespace Cert.Lib.RowVector

open Idealize.ShloMosaic Idealize.ShloMosaic.ValueIdx

/-- The reshape of a vector to one row is its broadcast along the second axis. -/
theorem shapeCast_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) (fun ax => ?_)).symm
  match ax with
  | ⟨0, _⟩ =>
    show i.val = if a = 1 then 0 else i.val
    split
    · have := i.isLt; omega
    · rfl

end Cert.Lib.RowVector
-- ==== Proof.KernelValue.lean ====
/-
  What the idealized kernel's two result arrays hold after its run, as the specification's functions of the
  argument arrays.

  Walking @main's segments in order, at the ideal values: a matmul launch leaves the host's general dot of its two
  input arrays (the casts to a shorter float format are the identity there, and the row blocks tile the array); the
  host stretch after it leaves one aggregation of that table and the bias vector as one row (a vector reshaped to
  a row is the vector broadcast along the second axis); a bias-and-tanh launch leaves tanh(aggregate + bias row):
  together one layer. Three layers give the embedding; the last launch leaves embedding · Wc + bias row.
-/
import proofs.«140898_j70093866270993_1_alg».proof.Proof.Boundaries
import proofs.«140898_j70093866270993_1_alg».proof.Proof.MatmulRegion0
import proofs.«140898_j70093866270993_1_alg».proof.Proof.MatmulRegion2
import proofs.«140898_j70093866270993_1_alg».proof.Proof.MatmulRegion4
import proofs.«140898_j70093866270993_1_alg».proof.Proof.BiasTanhRegion1
import proofs.«140898_j70093866270993_1_alg».proof.Proof.BiasTanhRegion3
import proofs.«140898_j70093866270993_1_alg».proof.Proof.BiasTanhRegion5
import proofs.«140898_j70093866270993_1_alg».proof.Proof.ClassifierRegion6
import proofs.«140898_j70093866270993_1_alg».proof.Proof.LibRowVector

set_option maxRecDepth 16384

noncomputable section

namespace Cert.KernelIdeal.KernelValue

open Cert.KernelIdeal Cert.KernelIdeal.Gen Cert.KernelIdeal.Boundaries
open Idealize.ShloMosaic Idealize.ShloMosaic.TcCoe Idealize.SL.Sem
open Idealize.ShloMosaic.StableHlo (after)

variable (m : (ℓ : Loc nD τ sig) → Buf (Elt Ideal) ℓ) (ρ : Dev nD → PrngReg)

/-! ## The edge slots' numbers and weights where each aggregation reads them -/

theorem src_at4 (c : Dev nD) : W4 m ρ c (Proc.devRef .tc main_v3) = (Cert.GraphConv.srcIdx (m ((c : Thread nD τ).loc main_arg1))) := (keep_main_v3_4_3 m ρ c).trans (src_at3 m ρ c)
theorem dst_at4 (c : Dev nD) : W4 m ρ c (Proc.devRef .tc main_v6) = (Cert.GraphConv.dstIdx (m ((c : Thread nD τ).loc main_arg1))) := (keep_main_v6_4_3 m ρ c).trans (dst_at3 m ρ c)
theorem norm_at4 (c : Dev nD) : W4 m ρ c (Proc.devRef .tc main_v31) = (Cert.GraphConv.edgeNorm (Cert.GraphConv.srcIdx (m ((c : Thread nD τ).loc main_arg1))) (Cert.GraphConv.dstIdx (m ((c : Thread nD τ).loc main_arg1)))) := (keep_main_v31_4_3 m ρ c).trans (norm_at3 m ρ c)
theorem src_at7 (c : Dev nD) : W7 m ρ c (Proc.devRef .tc main_v3) = (Cert.GraphConv.srcIdx (m ((c : Thread nD τ).loc main_arg1))) := (keep_main_v3_7_4 m ρ c).trans ((keep_main_v3_4_3 m ρ c).trans (src_at3 m ρ c))
theorem dst_at7 (c : Dev nD) : W7 m ρ c (Proc.devRef .tc main_v6) = (Cert.GraphConv.dstIdx (m ((c : Thread nD τ).loc main_arg1))) := (keep_main_v6_7_4 m ρ c).trans ((keep_main_v6_4_3 m ρ c).trans (dst_at3 m ρ c))
theorem norm_at7 (c : Dev nD) : W7 m ρ c (Proc.devRef .tc main_v31) = (Cert.GraphConv.edgeNorm (Cert.GraphConv.srcIdx (m ((c : Thread nD τ).loc main_arg1))) (Cert.GraphConv.dstIdx (m ((c : Thread nD τ).loc main_arg1)))) := (keep_main_v31_7_4 m ρ c).trans ((keep_main_v31_4_3 m ρ c).trans (norm_at3 m ρ c))
theorem src_at10 (c : Dev nD) : W10 m ρ c (Proc.devRef .tc main_v3) = (Cert.GraphConv.srcIdx (m ((c : Thread nD τ).loc main_arg1))) := (keep_main_v3_10_7 m ρ c).trans ((keep_main_v3_7_4 m ρ c).trans ((keep_main_v3_4_3 m ρ c).trans (src_at3 m ρ c)))
theorem dst_at10 (c : Dev nD) : W10 m ρ c (Proc.devRef .tc main_v6) = (Cert.GraphConv.dstIdx (m ((c : Thread nD τ).loc main_arg1))) := (keep_main_v6_10_7 m ρ c).trans ((keep_main_v6_7_4 m ρ c).trans ((keep_main_v6_4_3 m ρ c).trans (dst_at3 m ρ c)))
theorem norm_at10 (c : Dev nD) : W10 m ρ c (Proc.devRef .tc main_v31) = (Cert.GraphConv.edgeNorm (Cert.GraphConv.srcIdx (m ((c : Thread nD τ).loc main_arg1))) (Cert.GraphConv.dstIdx (m ((c : Thread nD τ).loc main_arg1)))) := (keep_main_v31_10_7 m ρ c).trans ((keep_main_v31_7_4 m ρ c).trans ((keep_main_v31_4_3 m ρ c).trans (norm_at3 m ρ c)))

/-! ## Layer 1 -/

theorem val32 (c : Dev nD) : W4 m ρ c (Proc.devRef .tc main_v32) = (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) :=
  (W4_arr m ρ c 2).trans ((MatmulRegion0.array_eq (V3 m ρ) c).trans (by
    rw [show V3 m ρ c main_arg0 = (m ((c : Thread nD τ).loc main_arg0)) from keep_main_arg0_3_0 m ρ c, show V3 m ρ c main_arg2 = (m ((c : Thread nD τ).loc main_arg2)) from keep_main_arg2_3_0 m ρ c]
    rfl))

theorem val45 (c : Dev nD) : W5 m ρ c (Proc.devRef .tc main_v45) = Cert.GraphConv.aggregate4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) := by
  show after hostOps1 (W4 m ρ c) (Proc.devRef .tc main_v45) = _
  rw [agg_after1, src_at4 m ρ c, dst_at4 m ρ c, norm_at4 m ρ c, val32 m ρ c]

theorem val46 (c : Dev nD) : W5 m ρ c (Proc.devRef .tc main_v46) = (broadcastInDim Cert.ReferenceIdeal.S1x4 ![1] Cert.ReferenceIdeal.Gen.bcast_S4_S1x4_1 (m ((c : Thread nD τ).loc main_arg3))) := by
  show after hostOps1 (W4 m ρ c) (Proc.devRef .tc main_v46) = _
  rw [bias_after1, show W4 m ρ c (Proc.devRef .tc main_arg3) = (m ((c : Thread nD τ).loc main_arg3)) from keep_main_arg3_4_0 m ρ c]
  exact Cert.Lib.RowVector.shapeCast_eq_broadcastInDim _ _ _

theorem val47 (c : Dev nD) : W6 m ρ c (Proc.devRef .tc main_v47) = (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) (m ((c : Thread nD τ).loc main_arg3))) :=
  (W6_arr m ρ c 2).trans ((BiasTanhRegion1.array_eq (V5 m ρ) c Cert.ReferenceIdeal.Gen.bcast_S1x4_S500000x4_0_1).trans (by
    rw [show V5 m ρ c main_v45 = _ from val45 m ρ c, show V5 m ρ c main_v46 = _ from val46 m ρ c]
    rfl))

/-! ## Layer 2 -/

theorem val48 (c : Dev nD) : W7 m ρ c (Proc.devRef .tc main_v48) = (Host.dotGeneral (F := Ideal) (φ₁ := .f32) (φ₂ := .f32) Cert.ReferenceIdeal.dot_S500000x4_S4x4_S500000x4_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) (m ((c : Thread nD τ).loc main_arg3))) (m ((c : Thread nD τ).loc main_arg4))) :=
  (W7_arr m ρ c 2).trans ((MatmulRegion2.array_eq (V6 m ρ) c).trans (by
    rw [show V6 m ρ c main_v47 = _ from val47 m ρ c, show V6 m ρ c main_arg4 = (m ((c : Thread nD τ).loc main_arg4)) from keep_main_arg4_6_0 m ρ c]
    rfl))

theorem val61 (c : Dev nD) : W8 m ρ c (Proc.devRef .tc main_v61) = Cert.GraphConv.aggregate4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x4_S4x4_S500000x4_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) (m ((c : Thread nD τ).loc main_arg3))) (m ((c : Thread nD τ).loc main_arg4))) := by
  show after hostOps3 (W7 m ρ c) (Proc.devRef .tc main_v61) = _
  rw [agg_after3, src_at7 m ρ c, dst_at7 m ρ c, norm_at7 m ρ c, val48 m ρ c]

theorem val62 (c : Dev nD) : W8 m ρ c (Proc.devRef .tc main_v62) = (broadcastInDim Cert.ReferenceIdeal.S1x4 ![1] Cert.ReferenceIdeal.Gen.bcast_S4_S1x4_1 (m ((c : Thread nD τ).loc main_arg5))) := by
  show after hostOps3 (W7 m ρ c) (Proc.devRef .tc main_v62) = _
  rw [bias_after3, show W7 m ρ c (Proc.devRef .tc main_arg5) = (m ((c : Thread nD τ).loc main_arg5)) from keep_main_arg5_7_0 m ρ c]
  exact Cert.Lib.RowVector.shapeCast_eq_broadcastInDim _ _ _

theorem val63 (c : Dev nD) : W9 m ρ c (Proc.devRef .tc main_v63) = (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x4_S4x4_S500000x4_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) (m ((c : Thread nD τ).loc main_arg3))) (m ((c : Thread nD τ).loc main_arg4))) (m ((c : Thread nD τ).loc main_arg5))) :=
  (W9_arr m ρ c 2).trans ((BiasTanhRegion3.array_eq (V8 m ρ) c Cert.ReferenceIdeal.Gen.bcast_S1x4_S500000x4_0_1).trans (by
    rw [show V8 m ρ c main_v61 = _ from val61 m ρ c, show V8 m ρ c main_v62 = _ from val62 m ρ c]
    rfl))

/-! ## Layer 3: the embedding -/

theorem val64 (c : Dev nD) : W10 m ρ c (Proc.devRef .tc main_v64) = (Host.dotGeneral (F := Ideal) (φ₁ := .f32) (φ₂ := .f32) Cert.ReferenceIdeal.dot_S500000x4_S4x2_S500000x2_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x4_S4x4_S500000x4_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) :=
  (W10_arr m ρ c 2).trans ((MatmulRegion4.array_eq (V9 m ρ) c).trans (by
    rw [show V9 m ρ c main_v63 = _ from val63 m ρ c, show V9 m ρ c main_arg6 = (m ((c : Thread nD τ).loc main_arg6)) from keep_main_arg6_9_0 m ρ c]
    rfl))

theorem val77 (c : Dev nD) : W11 m ρ c (Proc.devRef .tc main_v77) = Cert.GraphConv.aggregate2 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x4_S4x2_S500000x2_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x4_S4x4_S500000x4_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) := by
  show after hostOps5 (W10 m ρ c) (Proc.devRef .tc main_v77) = _
  rw [agg_after5, src_at10 m ρ c, dst_at10 m ρ c, norm_at10 m ρ c, val64 m ρ c]

theorem val78 (c : Dev nD) : W11 m ρ c (Proc.devRef .tc main_v78) = (broadcastInDim Cert.ReferenceIdeal.S1x2 ![1] Cert.ReferenceIdeal.Gen.bcast_S2_S1x2_1 (m ((c : Thread nD τ).loc main_arg7))) := by
  show after hostOps5 (W10 m ρ c) (Proc.devRef .tc main_v78) = _
  rw [bias_after5, show W10 m ρ c (Proc.devRef .tc main_arg7) = (m ((c : Thread nD τ).loc main_arg7)) from keep_main_arg7_10_0 m ρ c]
  exact Cert.Lib.RowVector.shapeCast_eq_broadcastInDim _ _ _

theorem val79 (c : Dev nD) : W12 m ρ c (Proc.devRef .tc main_v79) = (Cert.GraphConv.layer2 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x4_S4x2_S500000x2_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x4_S4x4_S500000x4_1_0_0_1_n_n none (Cert.GraphConv.layer4 (Cert.GraphConv.srcIdx (m ((c : Thread nD τ).loc main_arg1))) (Cert.GraphConv.dstIdx (m ((c : Thread nD τ).loc main_arg1))) (Cert.GraphConv.edgeNorm (Cert.GraphConv.srcIdx (m ((c : Thread nD τ).loc main_arg1))) (Cert.GraphConv.dstIdx (m ((c : Thread nD τ).loc main_arg1)))) (Host.dotGeneral (F := Ideal) (φ₁ := .f32) (φ₂ := .f32) Cert.ReferenceIdeal.dot_S500000x128_S128x4_S500000x4_1_0_0_1_n_n none (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) :=
  (W12_arr m ρ c 2).trans ((BiasTanhRegion5.array_eq (V11 m ρ) c Cert.ReferenceIdeal.Gen.bcast_S1x2_S500000x2_0_1).trans (by
    rw [show V11 m ρ c main_v77 = _ from val77 m ρ c, show V11 m ρ c main_v78 = _ from val78 m ρ c]
    rfl))

/-! ## The classifier -/

theorem val80 (c : Dev nD) : W13 m ρ c (Proc.devRef .tc main_v80) = (broadcastInDim Cert.ReferenceIdeal.S1x8 ![1] Cert.ReferenceIdeal.Gen.bcast_S8_S1x8_1 (m ((c : Thread nD τ).loc main_arg9))) := by
  show after hostOps6 (W12 m ρ c) (Proc.devRef .tc main_v80) = _
  rw [bias_after6, show W12 m ρ c (Proc.devRef .tc main_arg9) = (m ((c : Thread nD τ).loc main_arg9)) from keep_main_arg9_12_0 m ρ c]
  exact Cert.Lib.RowVector.shapeCast_eq_broadcastInDim _ _ _

/-- The second result: the embedding. -/
theorem embedding_eq (c : Dev nD) : W14 m ρ c (Proc.devRef .tc main_v79) = Cert.GraphConv.embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keep_main_v79_14_13 m ρ c).trans ((keep_main_v79_13_12 m ρ c).trans ((val79 m ρ c).trans rfl))

/-- The first result: the classifier's scores of the embedding. -/
theorem scores_eq (c : Dev nD) : W14 m ρ c (Proc.devRef .tc main_v81) = Cert.GraphConv.scores (Cert.GraphConv.embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) :=
  (W14_arr m ρ c 3).trans ((ClassifierRegion6.array_eq (V13 m ρ) c Cert.ReferenceIdeal.Gen.bcast_S1x8_S500000x8_0_1).trans (by
    rw [show V13 m ρ c main_v79 = _ from (keep_main_v79_13_12 m ρ c).trans (val79 m ρ c),
      show V13 m ρ c main_arg8 = (m ((c : Thread nD τ).loc main_arg8)) from keep_main_arg8_13_0 m ρ c, show V13 m ρ c main_v80 = _ from val80 m ρ c]
    rfl))

end Cert.KernelIdeal.KernelValue

end
-- ==== Proof.ReferenceValue.lean ====
/-
  The reference program's two composed terms are the specification's functions of the argument arrays: each is the
  same nest of host operations, so unfolding the definitions on both sides leaves one term.
-/
import proofs.«140898_j70093866270993_1_alg».proof.Proof.ReferenceRunPatched
import proofs.«140898_j70093866270993_1_alg».proof.Proof.Spec

set_option maxRecDepth 16384

noncomputable section

namespace Cert.ReferenceIdeal.RefValue

open Cert.ReferenceIdeal Cert.ReferenceIdeal.Gen Cert.ReferenceIdeal.ValueP Idealize.ShloMosaic Idealize.ShloMosaic.TcCoe Idealize.SL.Sem

variable {F : FTy → Type} [FloatOps F]

/-- The reference's second result is the three-layer embedding. -/
theorem embedding_eq (m : (ℓ : Loc nD τ sig) → Buf (Elt F) ℓ) (c : Dev nD) :
    res_main_v85 m c = Cert.GraphConv.embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v85
  rfl

/-- The reference's first result is the classifier's scores of that embedding. -/
theorem scores_eq (m : (ℓ : Loc nD τ sig) → Buf (Elt F) ℓ) (c : Dev nD) :
    res_main_v89 m c = Cert.GraphConv.scores (Cert.GraphConv.embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) := by
  unfold res_main_v89
  rfl

end Cert.ReferenceIdeal.RefValue

end
-- ==== Proof.lean ====
/-
  A three-layer graph convolution network over 500000 nodes and 16500000 edge slots, as a Pallas program of seven
  grid launches among host operations, against the same network written with host operations only.

  Both programs build the edge slots' source and destination numbers and their symmetric weights
  1/sqrt(deg(source)) · 1/sqrt(deg(destination)) with the same host operations, and both aggregate with the same
  gather, scale and scatter-add. They differ in the dense parts: where the reference multiplies the node table by a
  weight matrix with one general dot, the kernel launches a grid of 100 points, each multiplying a block of 5000 rows
  (after casting both operands to a shorter float format, which at the ideal values changes nothing) into a zero
  accumulator; where the reference broadcasts the bias to every row, adds and applies tanh, the kernel launches a
  grid whose points do the same on blocks of 5000 rows with the bias as one row; and the final product plus bias is
  one more such launch. At the ideal values a block of rows of a matrix product is the product of the block of rows,
  the blocks tile the node axis, and a sum over the contraction index is the same sum in either spelling; so each
  launch leaves exactly the array the reference's operation computes, and the two programs' results are one function
  of the arguments (`Cert.GraphConv.embedding`, `Cert.GraphConv.scores`). No law that needs finite inputs is used.

  The kernel's frames are the generated frame certificates. The kernel's run with its results named, and the
  reference's run, give the two posts; the ideal pass rewrote nothing, so `preserves` is trivial.
-/
import proofs.«140898_j70093866270993_1_alg».proof.Defs
import proofs.«140898_j70093866270993_1_alg».proof.Proof.Gen.Kernel
import proofs.«140898_j70093866270993_1_alg».proof.Proof.Gen.Kernel.Skeleton
import proofs.«140898_j70093866270993_1_alg».proof.Proof.Gen.Kernel.Launch
import proofs.«140898_j70093866270993_1_alg».proof.Proof.Gen.Kernel.Points
import proofs.«140898_j70093866270993_1_alg».proof.Proof.Gen.Kernel.Frame
import proofs.«140898_j70093866270993_1_alg».proof.Proof.Gen.KernelIdeal
import proofs.«140898_j70093866270993_1_alg».proof.Proof.Gen.KernelIdeal.Skeleton
import proofs.«140898_j70093866270993_1_alg».proof.Proof.Gen.KernelIdeal.Launch
import proofs.«140898_j70093866270993_1_alg».proof.Proof.Gen.KernelIdeal.Points
import proofs.«140898_j70093866270993_1_alg».proof.Proof.Gen.KernelIdeal.Frame
import proofs.«140898_j70093866270993_1_alg».proof.Proof.Gen.ReferenceIdeal
import proofs.«140898_j70093866270993_1_alg».proof.Proof.Gen.Pre_finite_inputs
import proofs.«140898_j70093866270993_1_alg».proof.Proof.KernelRun
import proofs.«140898_j70093866270993_1_alg».proof.Proof.KernelValue
import proofs.«140898_j70093866270993_1_alg».proof.Proof.ReferenceRunPatched
import proofs.«140898_j70093866270993_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both runs end with the classifier's scores and the embedding of the (agreeing) arguments. -/
theorem algebraic : Cert.algebraic_KernelIdeal_ReferenceIdeal := by
  intro m ρ m' ρ' _ hagree
  refine ⟨fun c => Cert.GraphConv.scores (Cert.GraphConv.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.GraphConv.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.scores_eq m ρ c),
        (h c).2.1.trans (Cert.KernelIdeal.KernelValue.embedding_eq m ρ c), (h c).2.2⟩)
      (Cert.KernelIdeal.RunValue.run_results (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9⟩ := hagree c
      rw [Cert.ReferenceIdeal.RefValue.scores_eq m' c, e0, e1, e2, e3, e4, e5, e6, e7, e8, e9]
    · obtain ⟨e0, e1, e2, e3, e4, e5, e6, e7, e8, e9⟩ := hagree c
      rw [Cert.ReferenceIdeal.RefValue.embedding_eq m' c, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
